-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x128, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let v2 : BitVec 32 := Scalar.select v0 arg1 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c24_i32 : BitVec 32 := 24#32
  let v1 : BitVec 32 := Scalar.subi c24_i32 v0
  let c0_i32 : BitVec 32 := 0#32
  let c0_i32_0 : BitVec 32 := 0#32
  ![v1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x64, .f32⟩
  | .hbm, ⟨32, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.BitsPoints.lean ====
/-
  The grid of the fused two-layer kernel has 50 points: 25 row stripes of the adjacency matrix in a first sweep
  (points 0..24), the same 25 stripes in reverse order in a second sweep (points 25..49).  The body has three
  guarded parts.  The first (the product of the features with the first weight matrix, kept in the first
  scratch) runs at point 0 only; the second (one stripe of the hidden layer's product with the second weight
  matrix, written into rows [400 i, 400 i + 400) of the second scratch) runs in the first sweep; the third (one
  stripe of the output, a row-wise softmax) runs in the second sweep.  This module decides those three
  conditions over the grid, says where the output window is idle and where it is written back, and names the
  staging and scratch buffers the body is called with.
-/
import proofs.«143505_g55216099557796_cont_9to1c4b_742_7_alg».proof.Proof.Gen.Kernel.Frame
import proofs.«143505_g55216099557796_cont_9to1c4b_742_7_alg».proof.Proof.Gen.Kernel.Skeleton

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three guards over the grid -/

/-- The guard of the first part: both grid coordinates are zero. -/
abbrev guardFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The guard of the second part: the sweep coordinate is zero. -/
abbrev guardSweep0 (i : grid0.Coords) : Prop := k0_cond2 i = 1#1
/-- The guard of the third part: the sweep coordinate is one. -/
abbrev guardSweep1 (i : grid0.Coords) : Prop := k0_cond3 i = 1#1

theorem guardFirst_iff : ∀ t : Fin cfg0.N, guardFirst (grid0.coords t) ↔ t.val = 0 :=
  (by decide +kernel : ∀ t : Fin grid0.N, guardFirst (grid0.coords t) ↔ t.val = 0)
theorem guardSweep0_iff : ∀ t : Fin cfg0.N, guardSweep0 (grid0.coords t) ↔ t.val < 25 :=
  (by decide +kernel : ∀ t : Fin grid0.N, guardSweep0 (grid0.coords t) ↔ t.val < 25)
theorem guardSweep1_iff : ∀ t : Fin cfg0.N, guardSweep1 (grid0.coords t) ↔ 25 ≤ t.val :=
  (by decide +kernel : ∀ t : Fin grid0.N, guardSweep1 (grid0.coords t) ↔ 25 ≤ t.val)

/-- In the first sweep the stripe written into the second scratch starts at row 400 times the point's number. -/
theorem stripeOff_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The output window is idle exactly in the first sweep, -/
theorem idle_6 : ∀ t : Fin cfg0.N, cfg0.idle 6 (grid0.coords t) = decide (t.val < 25) := by decide +kernel
/-- and written back exactly at the points of the second sweep. -/
theorem flush_6 : ∀ t : Fin cfg0.N, (cfg0.win 6).flush t = decide (25 ≤ t.val) :=
  (by decide +kernel : ∀ t : Fin grid0.N, win0_6.flush t = decide (25 ≤ t.val))
/-- In the second sweep the output block's row index runs down from 24: point t writes block 49 - t. -/
theorem outIndex_eq : ∀ t : Fin cfg0.N, 25 ≤ t.val → win0_6.index t = ![49 - t.val, 0] :=
  (by decide +kernel : ∀ t : Fin grid0.N, 25 ≤ t.val → win0_6.index t = ![49 - t.val, 0])
/-- The adjacency window's block at point t: stripe t in the first sweep, stripe 49 - t in the second. -/
theorem adjIndex_eq : ∀ t : Fin cfg0.N, win0_1.index t = ![if t.val < 25 then t.val else 49 - t.val, 0] :=
  (by decide +kernel : ∀ t : Fin grid0.N, win0_1.index t = ![if t.val < 25 then t.val else 49 - t.val, 0])

/-! ## The buffers the body is called with -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x64 .f32 := win0_6.stage (cfg0.slots t 6)
abbrev hs0_6 (t : Fin cfg0.N) : (ms0_6 t).IsWhole := hstage0_6 ((cfg0.slots t 6).cast nbuf0_6)
/-- The two scratch buffers: the first layer's support (features times first weights), and the second layer's
    support (hidden activations times second weights), filled one stripe per point of the first sweep. -/
abbrev scr1 : Memref sig .tc .vmem S10000x128 .f32 := Memref.whole cc0_scratch0
abbrev scr2 : Memref sig .tc .vmem S10000x64 .f32 := Memref.whole cc0_scratch1
theorem scr1_whole : (scr1).IsWhole := Memref.isWhole_whole _
theorem scr2_whole : (scr2).IsWhole := Memref.isWhole_whole _

/-- The class invariant with the two scratch buffers as memrefs owned at some contents. -/
theorem PhiA_scratch (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

end Cert.Kernel.Hand

end
-- ==== Proof.BitsRuns.lean ====
/-
  The body of the fused kernel, run once in each of its three cases, on any whole staging and scratch buffers.
  Each run is stated over the buffers the case touches only; what a store leaves is recorded as the list of
  pieces written (newest first), found when the run hands the buffer to the continuation.
-/
import proofs.«143505_g55216099557796_cont_9to1c4b_742_7_alg».proof.Proof.BitsPoints
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- Second sweep (the third part alone): the adjacency stripe, the whole second scratch and the second bias are read,
    and the output's staging buffer is stored whole. -/
noncomputable def runOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : ¬guardSweep0 i) (hc2 : guardSweep1 i)
    (x1 : Vec F S400x10000 .f32) (x5 : Vec F S1x64 .f32) (s2 : Vec F S10000x64 .f32) :
    { LO : List (View.Piece (Elt F) S400x64 .f32) //
      ∀ (E : Set ℕ) (K : PUnit → sProp 𝕄),
        iprop(owns (c : Thread nD τ) arg3 fullShare x1 ∗ owns (c : Thread nD τ) arg7 fullShare x5 ∗ (∃ d, owns (c : Thread nD τ) arg8 fullShare d) ∗ owns (c : Thread nD τ) arg10 fullShare s2
            ∗ (iprop(owns (c : Thread nD τ) arg3 fullShare x1 ∗ owns (c : Thread nD τ) arg7 fullShare x5 ∗ (∃ f, arg8.view.loc (c : Thread nD τ) ↦[arg8.view.set]{fullShare} arg8.view.writes (Elt F) f LO) ∗ owns (c : Thread nD τ) arg10 fullShare s2) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f1, %hf1, H1⟩, ⟨%f5, %hf5, H5⟩, ⟨%d6, %f6, -, H6⟩, ⟨%fs1, %hfs1, HS1⟩, Hk⟩
    obtain rfl := harg3.eq_unread hf1; obtain rfl := harg7.eq_unread hf5; obtain rfl := harg10.eq_unread hfs1
    sl_exec (disch := first | exact hc0 | exact hc1 | exact hc2)
    sl_step
    iapply Hk
    isplitl [H1]
    · iexists _; isplitr; · ipureintro; exact harg3.read_unread _
      iexact H1
    isplitl [H5]
    · iexists _; isplitr; · ipureintro; exact harg7.read_unread _
      iexact H5
    isplitl [H6]
    · iexists _; iexact H6
    iexists _; isplitr; · ipureintro; exact harg10.read_unread _
    iexact HS1

set_option maxHeartbeats 1000000 in
/-- Point 0 (the first and second parts): the features and the first weights are read and their product stored
    over the whole first scratch; then the adjacency stripe, that scratch, the first bias and the second weights are
    read and one stripe stored into the second scratch, whose other rows keep what they held. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32) :
    { LS : List (View.Piece (Elt F) S10000x128 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ owns (c : Thread nD τ) arg10 fullShare d2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg9.view.loc (c : Thread nD τ) ↦[arg9.view.set]{fullShare} arg9.view.writes (Elt F) f LS.1) ∗ (arg10.view.loc (c : Thread nD τ) ↦[arg10.view.set]{fullShare} arg10.view.writes (Elt F) (harg10.unread d2) LS.2)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS1]; · iexists _; iexact HS1
    iexact HS2

set_option maxHeartbeats 1000000 in
/-- Later points of the first sweep (the second part alone): the adjacency stripe, the first scratch, the first
    bias and the second weights are read and one stripe stored into the second scratch. -/
noncomputable def runStripe (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : guardSweep0 i) (hc2 : ¬guardSweep1 i)
    (x1 : Vec F S400x10000 .f32) (x3 : Vec F S1x128 .f32) (x4 : Vec F S128x64 .f32) (s1 : Vec F S10000x128 .f32) (d2 : Vec F S10000x64 .f32) :
    { LS : List (View.Piece (Elt F) S10000x64 .f32) //
      ∀ (E : Set ℕ) (K : PUnit → sProp 𝕄),
        iprop(owns (c : Thread nD τ) arg3 fullShare x1 ∗ owns (c : Thread nD τ) arg5 fullShare x3 ∗ owns (c : Thread nD τ) arg6 fullShare x4 ∗ owns (c : Thread nD τ) arg9 fullShare s1 ∗ owns (c : Thread nD τ) arg10 fullShare d2
            ∗ (iprop(owns (c : Thread nD τ) arg3 fullShare x1 ∗ owns (c : Thread nD τ) arg5 fullShare x3 ∗ owns (c : Thread nD τ) arg6 fullShare x4 ∗ owns (c : Thread nD τ) arg9 fullShare s1 ∗ (arg10.view.loc (c : Thread nD τ) ↦[arg10.view.set]{fullShare} arg10.view.writes (Elt F) (harg10.unread d2) LS)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f1, %hf1, H1⟩, ⟨%f3, %hf3, H3⟩, ⟨%f4, %hf4, H4⟩, ⟨%fs1, %hfs1, HS1⟩, ⟨%fs2, %hfs2, HS2⟩, Hk⟩
    obtain rfl := harg3.eq_unread hf1; obtain rfl := harg5.eq_unread hf3; obtain rfl := harg6.eq_unread hf4; obtain rfl := harg9.eq_unread hfs1; obtain rfl := harg10.eq_unread hfs2
    sl_exec (disch := first | exact hc0 | exact hc1 | exact hc2)
    sl_step
    iapply Hk
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [HS1]
    · iexists _; isplitr; · ipureintro; exact harg9.read_unread _
      iexact HS1
    iexact HS2

theorem zeros2 : (![0, 0] : Fin 2 → ℕ) = fun _ => 0 := funext fun a => by fin_cases a <;> rfl

/-- One store through the whole-shape rectangle at zero offsets, read back, is its payload. -/
theorem read_whole_store {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- What the second sweep's store leaves in the output's staging buffer: the softmax payload of the stripe, the second
    scratch and the second bias as the buffers held them. -/
theorem runOut_read (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : ¬guardSweep0 i) (hc2 : guardSweep1 i)
    (x1 : Vec F S400x10000 .f32) (x5 : Vec F S1x64 .f32) (s2 : Vec F S10000x64 .f32) (f : arg8.view.ty.Contents (Elt F)) :
    arg8.view.read (Elt F) (arg8.view.writes (Elt F) f (runOut c i arg2 harg2 arg3 harg3 arg4 harg4 arg5 harg5 arg6 harg6 arg7 harg7 arg8 harg8 arg9 harg9 arg10 harg10 hc0 hc1 hc2 x1 x5 s2).1) = k0_pay3 x1 s2 x5 := by
  unfold runOut
  dsimp only
  refine (read_whole_store arg8.view f zeros2 _ _).trans ?_
  simp only [View.readAt_eq_ld, harg3.read_unread, harg10.read_unread, harg7.read_unread,
    View.ld_unit_zero (S := S400x10000) zeros2, View.ld_unit_zero (S := S10000x64) zeros2, View.ld_unit_zero (S := S1x64) zeros2]

/-- What point 0 leaves in the first scratch: the product of the features with the first weights. -/
theorem runFirst_read1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 hc0 hc1 hc2 x0 x1 x2 x3 x4 d2).1.1) = k0_pay1 x0 x2 := by
  unfold runFirst
  dsimp only
  sl_unfold_run_names
  refine (read_whole_store arg9.view f zeros2 _ _).trans ?_
  simp only [View.readAt_eq_ld, harg2.read_unread, harg4.read_unread,
    View.ld_unit_zero (S := S10000x128) zeros2, View.ld_unit_zero (S := S128x128) zeros2]

/-- What point 0 leaves in the second scratch, inside the stripe it stores (rows [o, o + 400)): the stripe's
    payload, over the first scratch as just written. -/
theorem runFirst_read2_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg10.view.read (Elt F) (arg10.view.writes (Elt F) (harg10.unread d2) (runFirst c i arg2 harg2 arg3 harg3 arg4 harg4 arg5 harg5 arg6 harg6 arg7 harg7 arg8 harg8 arg9 harg9 arg10 harg10 hc0 hc1 hc2 x0 x1 x2 x3 x4 d2).1.2) y
      = k0_pay2 x1 (k0_pay1 x0 x2) x3 x4 x := by
  unfold runFirst
  dsimp only
  sl_unfold_run_names
  refine (View.read_writes_cons_rows_of_mem arg10.view _ _ _ [] y x hoff hx0 hx1).trans ?_
  simp only [View.readAt_eq_ld, harg2.read_unread, harg3.read_unread, harg4.read_unread, harg5.read_unread, harg6.read_unread,
    View.readCov_unit_zero (S := S10000x128) arg9.view zeros2,
    View.ld_unit_zero (S := S10000x128) zeros2, View.ld_unit_zero (S := S128x128) zeros2, View.ld_unit_zero (S := S400x10000) zeros2,
    View.ld_unit_zero (S := S1x128) zeros2, View.ld_unit_zero (S := S128x64) zeros2]

/-- and outside that stripe, what the scratch held. -/
theorem runFirst_read2_not_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32)
    (o : ℕ) (hoff : k0_off1 i = ![o, 0]) (y : S10000x64.Idx)
    (h : (y (0 : Fin 2)).val < o ∨ o + 400 ≤ (y (0 : Fin 2)).val) :
    arg10.view.read (Elt F) (arg10.view.writes (Elt F) (harg10.unread d2) (runFirst c i arg2 harg2 arg3 harg3 arg4 harg4 arg5 harg5 arg6 harg6 arg7 harg7 arg8 harg8 arg9 harg9 arg10 harg10 hc0 hc1 hc2 x0 x1 x2 x3 x4 d2).1.2) y = d2 y := by
  unfold runFirst
  dsimp only
  sl_unfold_run_names
  refine (View.read_writes_cons_rows_of_not_mem arg10.view _ _ _ [] y hoff rfl h).trans ?_
  rw [View.writes_nil, harg10.read_unread]

/-- What a later point of the first sweep leaves in the second scratch, inside the stripe it stores: the stripe's
    payload over the first scratch as the point found it, -/
theorem runStripe_read_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : guardSweep0 i) (hc2 : ¬guardSweep1 i)
    (x1 : Vec F S400x10000 .f32) (x3 : Vec F S1x128 .f32) (x4 : Vec F S128x64 .f32) (s1 : Vec F S10000x128 .f32) (d2 : Vec F S10000x64 .f32)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg10.view.read (Elt F) (arg10.view.writes (Elt F) (harg10.unread d2) (runStripe c i arg2 harg2 arg3 harg3 arg4 harg4 arg5 harg5 arg6 harg6 arg7 harg7 arg8 harg8 arg9 harg9 arg10 harg10 hc0 hc1 hc2 x1 x3 x4 s1 d2).1) y
      = k0_pay2 x1 s1 x3 x4 x := by
  unfold runStripe
  dsimp only
  sl_unfold_run_names
  refine (View.read_writes_cons_rows_of_mem arg10.view _ _ _ [] y x hoff hx0 hx1).trans ?_
  simp only [View.readAt_eq_ld, harg3.read_unread, harg5.read_unread, harg6.read_unread, harg9.read_unread,
    View.ld_unit_zero (S := S10000x128) zeros2, View.ld_unit_zero (S := S400x10000) zeros2,
    View.ld_unit_zero (S := S1x128) zeros2, View.ld_unit_zero (S := S128x64) zeros2]

/-- and outside that stripe, what the scratch held. -/
theorem runStripe_read_not_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : guardSweep0 i) (hc2 : ¬guardSweep1 i)
    (x1 : Vec F S400x10000 .f32) (x3 : Vec F S1x128 .f32) (x4 : Vec F S128x64 .f32) (s1 : Vec F S10000x128 .f32) (d2 : Vec F S10000x64 .f32)
    (o : ℕ) (hoff : k0_off1 i = ![o, 0]) (y : S10000x64.Idx)
    (h : (y (0 : Fin 2)).val < o ∨ o + 400 ≤ (y (0 : Fin 2)).val) :
    arg10.view.read (Elt F) (arg10.view.writes (Elt F) (harg10.unread d2) (runStripe c i arg2 harg2 arg3 harg3 arg4 harg4 arg5 harg5 arg6 harg6 arg7 harg7 arg8 harg8 arg9 harg9 arg10 harg10 hc0 hc1 hc2 x1 x3 x4 s1 d2).1) y = d2 y := by
  unfold runStripe
  dsimp only
  sl_unfold_run_names
  refine (View.read_writes_cons_rows_of_not_mem arg10.view _ _ _ [] y hoff rfl h).trans ?_
  rw [View.writes_nil, harg10.read_unread]

end Cert.Kernel.Hand

end
-- ==== Proof.BitsTrack.lean ====
/-
  What the fused kernel holds after each of its 50 grid points, and the run of the whole program.

  The first scratch is written once, at point 0, with the product of the features and the first weight matrix
  ("the first support"), and only read afterwards.  The second scratch is filled one stripe of 400 rows per point
  of the first sweep: after point k (k < 25) its rows below 400 (k + 1) hold, stripe by stripe, the hidden layer
  (the adjacency stripe times the first support, plus the first bias, clamped below at zero) times the second
  weight matrix ("the second support"); the rows not yet written hold whatever they held.  In the second sweep the
  whole second support is read, and the output's staging buffer receives the row-wise softmax of the adjacency
  stripe times the second support plus the second bias.  The invariant carried between points says exactly this.
-/
import proofs.«143505_g55216099557796_cont_9to1c4b_742_7_alg».proof.Proof.BitsRuns
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen
open Idealize.ShloMosaic.ValueIdx (ix2 eq_ix2 idx2_lt0 idx2_lt1)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem gridN : cfg0.N = 50 := N_0
theorem gridN_pos : 0 < cfg0.N := by rw [gridN]; omega

/-- The first grid point. -/
abbrev pt0 : Fin cfg0.N := ⟨0, gridN_pos⟩

/-! ## The two supports, as functions of the argument blocks -/

/-- The first support: features times first weights, from the blocks of point 0 (both windows hold their whole
    array at every point). -/
def support1 (c : Dev nD) : Vec F S10000x128 .f32 := k0_pay1 (iblk m c 0 pt0) (iblk m c 2 pt0)

/-- Stripe n of the second support: from the adjacency block, the first bias and the second weights of point n. -/
def stripe2 (c : Dev nD) (n : ℕ) (h : n < cfg0.N) : Vec F S400x64 .f32 :=
  k0_pay2 (iblk m c 1 ⟨n, h⟩) (support1 m c) (iblk m c 3 ⟨n, h⟩) (iblk m c 4 ⟨n, h⟩)

theorem stripeNo_lt (y : S10000x64.Idx) : (y (0 : Fin 2)).val / 400 < cfg0.N := by
  have := idx2_lt0 y; rw [gridN]; omega

/-- The second support, whole: row r is row r mod 400 of stripe r div 400. -/
def support2 (c : Dev nD) : Vec F S10000x64 .f32 := fun y =>
  stripe2 m c ((y (0 : Fin 2)).val / 400) (stripeNo_lt y)
    (ix2 ⟨(y (0 : Fin 2)).val % 400, Nat.mod_lt _ (by omega)⟩ ⟨(y (1 : Fin 2)).val, idx2_lt1 y⟩)

/-- Contents d of the second scratch have their first n stripes (at most 25) done. -/
def StripesDone (c : Dev nD) (n : ℕ) (d : Vec F S10000x64 .f32) : Prop :=
  ∀ (k : ℕ) (hk : k < cfg0.N), k < n → k < 25 → ∀ (y : S10000x64.Idx) (x : S400x64.Idx),
    (y (0 : Fin 2)).val = 400 * k + (x (0 : Fin 2)).val → (y (1 : Fin 2)).val = (x (1 : Fin 2)).val → d y = stripe2 m c k hk x

/-- Once all 25 stripes are done, more points change nothing. -/
theorem StripesDone.of_all {c : Dev nD} {n n' : ℕ} {d : Vec F S10000x64 .f32} (h : StripesDone m c n d) (hn : 25 ≤ n) :
    StripesDone m c n' d := fun k hk _ hk25 y x h0 h1 => h k hk (by omega) hk25 y x h0 h1

/-- With all 25 stripes done the contents are the second support. -/
theorem StripesDone.eq_support2 {c : Dev nD} {n : ℕ} {d : Vec F S10000x64 .f32} (h : StripesDone m c n d) (hn : 25 ≤ n) :
    d = support2 m c := by
  funext y
  have hy := idx2_lt0 y
  exact h ((y (0 : Fin 2)).val / 400) (stripeNo_lt y) (by omega) (by omega) y
    (ix2 ⟨(y (0 : Fin 2)).val % 400, Nat.mod_lt _ (by omega)⟩ ⟨(y (1 : Fin 2)).val, idx2_lt1 y⟩)
    (by show (y (0 : Fin 2)).val = 400 * ((y (0 : Fin 2)).val / 400) + (y (0 : Fin 2)).val % 400; omega) rfl

/-! ## The invariant between points -/

/-- Before point 0 the class's invariant (both scratch buffers at anything); before point n > 0 the first scratch
    at the first support, the second with its first n stripes done, the generator register at some state. -/
def PhiS (c : Dev nD) : ℕ → sProp 𝕄
  | 0 => Pipeline.ΦA spec0 c
  | n + 1 => iprop(iprop(owns (c : Thread nD τ) scr1 fullShare (support1 m c) ∗ (∃ d, ⌜StripesDone m c (n + 1) d⌝ ∗ owns (c : Thread nD τ) scr2 fullShare d)) ∗ (∃ r, prngReg c r))

theorem PhiS_pos (c : Dev nD) (n : ℕ) (hn : n ≠ 0) :
    PhiS m c n = iprop(iprop(owns (c : Thread nD τ) scr1 fullShare (support1 m c) ∗ (∃ d, ⌜StripesDone m c n d⌝ ∗ owns (c : Thread nD τ) scr2 fullShare d)) ∗ (∃ r, prngReg c r)) := by
  cases n with
  | zero => exact absurd rfl hn
  | succ n => rfl

/-! ## The proof data -/

/-- The arrays as the region finds them; after the body each input's buffer at its block and the output's at the
    softmax payload of the point's adjacency block, the second support and the second bias (read only where the
    output is live: the second sweep); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (support2 m c) (iblk m c 5 t)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = k0_pay3 (iblk m c 1 t) (support2 m c) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The second scratch, one point on -/

/-- Point 0 stores stripe 0: one stripe is done, whatever the scratch held. -/
theorem stripes_first (c : Dev nD) (hc0 : guardFirst (grid0.coords pt0)) (hc1 : guardSweep0 (grid0.coords pt0)) (hc2 : ¬guardSweep1 (grid0.coords pt0))
    (d2 : Vec F S10000x64 .f32) :
    StripesDone m c 1 (scr2.view.read (Elt F) (scr2.view.writes (Elt F) (scr2_whole.unread d2)
      (runFirst c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2).1.2)) := by
  intro k hk hk1 _ y x h0 h1
  obtain rfl : k = 0 := by omega
  exact runFirst_read2_mem c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2
    (400 * 0) (stripeOff_eq pt0 (by show (0 : ℕ) < 25; omega)) y x h0 h1

/-- A later point t of the first sweep stores stripe t: with t stripes done before, t + 1 are done after. -/
theorem stripes_step (c : Dev nD) (t : Fin cfg0.N) (ht : t.val < 25)
    (hc0 : ¬guardFirst (grid0.coords t)) (hc1 : guardSweep0 (grid0.coords t)) (hc2 : ¬guardSweep1 (grid0.coords t))
    (d2 : Vec F S10000x64 .f32) (hd : StripesDone m c t.val d2) :
    StripesDone m c (t.val + 1) (scr2.view.read (Elt F) (scr2.view.writes (Elt F) (scr2_whole.unread d2)
      (runStripe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2).1)) := by
  intro k hk hk1 hk25 y x h0 h1
  have hx := idx2_lt0 x
  by_cases hkt : k = t.val
  · subst hkt
    exact runStripe_read_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2
      (400 * t.val) (stripeOff_eq t ht) y x h0 h1
  · exact (runStripe_read_not_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2
      (400 * t.val) (stripeOff_eq t ht) y (by omega)).trans (hd k hk (by omega) hk25 y x h0 h1)

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

/-- In the first sweep the output's buffer is handed back as found. -/
theorem leaves_6_idle (c : Dev nD) (t : Fin cfg0.N) (ht : t.val < 25) :
    (dats m 0 c).leavesExact 6 t = iprop(∃ d, owns (c : Thread nD τ) (ms0_6 t) fullShare ((dats m 0 c).before 6 t d)) :=
  (dats m 0 c).leavesExact_idle 6 t (by rw [idle_6 t]; exact decide_eq_true ht) (by rw [flush_6 t]; exact decide_eq_false (by omega))

/-- In the second sweep it is left at the point's softmax payload. -/
theorem leaves_6_live (c : Dev nD) (t : Fin cfg0.N) (ht : 25 ≤ t.val) :
    (dats m 0 c).leavesExact 6 t = owns (c : Thread nD τ) (ms0_6 t) fullShare ((dats m 0 c).after 6 t) := by
  unfold Dat.leavesExact; rw [idle_6 t, decide_eq_false (by omega)]

set_option maxHeartbeats 4000000 in
/-- Point 0. -/
theorem sound_first (c : Dev nD) (t : Fin cfg0.N) (h0 : t.val = 0) :
    bodyPre m c t ⊢ wp frame (wpE (defs₀ (F := F)) Variants.none c none) Set.univ (bodyAt0 t) (fun _ => bodyPost m c t) := by
  obtain rfl : t = pt0 := Fin.ext h0
  have hc0 : guardFirst (grid0.coords pt0) := (guardFirst_iff pt0).mpr rfl
  have hc1 : guardSweep0 (grid0.coords pt0) := (guardSweep0_iff pt0).mpr (by show (0 : ℕ) < 25; omega)
  have hc2 : ¬guardSweep1 (grid0.coords pt0) := fun h => absurd ((guardSweep1_iff pt0).mp h) (by show ¬ 25 ≤ (0 : ℕ); omega)
  unfold bodyPre bodyPost bodyAt0
  simp only [before_0, before_1, before_2, before_3, before_4, before_5]
  rw [show (dats m 0 c).owesAt () (Fin.succ pt0) = (dats m 0 c).owesAt () (Fin.castSucc pt0) from rfl]
  rw [show (dats m 0 c).leavesExact 0 pt0 = owns (c : Thread nD τ) (ms0_0 pt0) fullShare ((dats m 0 c).after 0 pt0) from by
    unfold Dat.leavesExact; rw [live_0 pt0], after_0]
  rw [show (dats m 0 c).leavesExact 1 pt0 = owns (c : Thread nD τ) (ms0_1 pt0) fullShare ((dats m 0 c).after 1 pt0) from by
    unfold Dat.leavesExact; rw [live_1 pt0], after_1]
  rw [show (dats m 0 c).leavesExact 2 pt0 = owns (c : Thread nD τ) (ms0_2 pt0) fullShare ((dats m 0 c).after 2 pt0) from by
    unfold Dat.leavesExact; rw [live_2 pt0], after_2]
  rw [show (dats m 0 c).leavesExact 3 pt0 = owns (c : Thread nD τ) (ms0_3 pt0) fullShare ((dats m 0 c).after 3 pt0) from by
    unfold Dat.leavesExact; rw [live_3 pt0], after_3]
  rw [show (dats m 0 c).leavesExact 4 pt0 = owns (c : Thread nD τ) (ms0_4 pt0) fullShare ((dats m 0 c).after 4 pt0) from by
    unfold Dat.leavesExact; rw [live_4 pt0], after_4]
  rw [show (dats m 0 c).leavesExact 5 pt0 = owns (c : Thread nD τ) (ms0_5 pt0) fullShare ((dats m 0 c).after 5 pt0) from by
    unfold Dat.leavesExact; rw [live_5 pt0], after_5]
  rw [leaves_6_idle m c pt0 (by show (0 : ℕ) < 25; omega)]
  rw [Phi_succ, Phi_castSucc]
  rw [show PhiS m c (pt0 : Fin cfg0.N).val = Pipeline.ΦA spec0 c from rfl, PhiA_scratch]
  rw [PhiS_pos m c _ (Nat.succ_ne_zero _)]
  iintro ⟨⟨⟨⟨%ds1, HS1⟩, ⟨%d2, HS2⟩⟩, Hg⟩, Ho, ⟨%d0, H0⟩, ⟨%d1, H1⟩, ⟨%d2', H2⟩, ⟨%d3, H3⟩, ⟨%d4, H4⟩, ⟨%d5, H5⟩, ⟨%d6, H6⟩⟩
  iapply ((runFirst c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2).2 Set.univ _)
  isplitl [H0]; · iexact H0
  isplitl [H1]; · iexact H1
  isplitl [H2]; · iexact H2
  isplitl [H3]; · iexact H3
  isplitl [H4]; · iexact H4
  isplitl [HS1]; · iexists _; iexact HS1
  isplitl [HS2]; · iexact HS2
  iintro ⟨H0, H1, H2, H3, H4, ⟨%f1, HS1⟩, HS2⟩
  isplitl [HS1 HS2 Hg]
  · isplitl [HS1 HS2]
    · isplitl [HS1]
      · unfold owns; iexists _; isplitr
        swap; · iexact HS1
        ipureintro
        exact runFirst_read1 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2 f1
      iexists _; isplitr
      · ipureintro; exact stripes_first m c hc0 hc1 hc2 d2
      unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 4000000 in
/-- The later points of the first sweep. -/
theorem sound_stripe (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  have hc0 : ¬guardFirst (grid0.coords t) := fun h => h0 ((guardFirst_iff t).mp h)
  have hc1 : guardSweep0 (grid0.coords t) := (guardSweep0_iff t).mpr h1
  have hc2 : ¬guardSweep1 (grid0.coords t) := fun h => absurd ((guardSweep1_iff t).mp h) (by omega)
  unfold bodyPre bodyPost bodyAt0
  simp only [before_0, before_1, before_2, before_3, before_4, before_5]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_0 t], after_0]
  rw [show (dats m 0 c).leavesExact 1 t = owns (c : Thread nD τ) (ms0_1 t) fullShare ((dats m 0 c).after 1 t) from by
    unfold Dat.leavesExact; rw [live_1 t], after_1]
  rw [show (dats m 0 c).leavesExact 2 t = owns (c : Thread nD τ) (ms0_2 t) fullShare ((dats m 0 c).after 2 t) from by
    unfold Dat.leavesExact; rw [live_2 t], after_2]
  rw [show (dats m 0 c).leavesExact 3 t = owns (c : Thread nD τ) (ms0_3 t) fullShare ((dats m 0 c).after 3 t) from by
    unfold Dat.leavesExact; rw [live_3 t], after_3]
  rw [show (dats m 0 c).leavesExact 4 t = owns (c : Thread nD τ) (ms0_4 t) fullShare ((dats m 0 c).after 4 t) from by
    unfold Dat.leavesExact; rw [live_4 t], after_4]
  rw [show (dats m 0 c).leavesExact 5 t = owns (c : Thread nD τ) (ms0_5 t) fullShare ((dats m 0 c).after 5 t) from by
    unfold Dat.leavesExact; rw [live_5 t], after_5]
  rw [leaves_6_idle m c t h1]
  rw [Phi_succ, Phi_castSucc, PhiS_pos m c _ h0, PhiS_pos m c _ (Nat.succ_ne_zero _)]
  iintro ⟨⟨⟨HS1, ⟨%d2, %hd2, HS2⟩⟩, Hg⟩, Ho, ⟨%d0, H0⟩, ⟨%d1, H1⟩, ⟨%d2', H2⟩, ⟨%d3, H3⟩, ⟨%d4, H4⟩, ⟨%d5, H5⟩, ⟨%d6, H6⟩⟩
  iapply ((runStripe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2).2 Set.univ _)
  isplitl [H1]; · iexact H1
  isplitl [H3]; · iexact H3
  isplitl [H4]; · iexact H4
  isplitl [HS1]; · iexact HS1
  isplitl [HS2]; · iexact HS2
  iintro ⟨H1, H3, H4, HS1, HS2⟩
  isplitl [HS1 HS2 Hg]
  · isplitl [HS1 HS2]
    · isplitl [HS1]
      · iexact HS1
      iexists _; isplitr
      · ipureintro; exact stripes_step m c t h1 hc0 hc1 hc2 d2 hd2
      unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 4000000 in
/-- The second sweep. -/
theorem sound_out (c : Dev nD) (t : Fin cfg0.N) (h2 : 25 ≤ t.val) :
    bodyPre m c t ⊢ wp frame (wpE (defs₀ (F := F)) Variants.none c none) Set.univ (bodyAt0 t) (fun _ => bodyPost m c t) := by
  have hc0 : ¬guardFirst (grid0.coords t) := fun h => absurd ((guardFirst_iff t).mp h) (by omega)
  have hc1 : ¬guardSweep0 (grid0.coords t) := fun h => absurd ((guardSweep0_iff t).mp h) (by omega)
  have hc2 : guardSweep1 (grid0.coords t) := (guardSweep1_iff t).mpr h2
  unfold bodyPre bodyPost bodyAt0
  simp only [before_0, before_1, before_2, before_3, before_4, before_5]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_0 t], after_0]
  rw [show (dats m 0 c).leavesExact 1 t = owns (c : Thread nD τ) (ms0_1 t) fullShare ((dats m 0 c).after 1 t) from by
    unfold Dat.leavesExact; rw [live_1 t], after_1]
  rw [show (dats m 0 c).leavesExact 2 t = owns (c : Thread nD τ) (ms0_2 t) fullShare ((dats m 0 c).after 2 t) from by
    unfold Dat.leavesExact; rw [live_2 t], after_2]
  rw [show (dats m 0 c).leavesExact 3 t = owns (c : Thread nD τ) (ms0_3 t) fullShare ((dats m 0 c).after 3 t) from by
    unfold Dat.leavesExact; rw [live_3 t], after_3]
  rw [show (dats m 0 c).leavesExact 4 t = owns (c : Thread nD τ) (ms0_4 t) fullShare ((dats m 0 c).after 4 t) from by
    unfold Dat.leavesExact; rw [live_4 t], after_4]
  rw [show (dats m 0 c).leavesExact 5 t = owns (c : Thread nD τ) (ms0_5 t) fullShare ((dats m 0 c).after 5 t) from by
    unfold Dat.leavesExact; rw [live_5 t], after_5]
  rw [leaves_6_live m c t h2, after_6]
  rw [Phi_succ, Phi_castSucc, PhiS_pos m c _ (by omega), PhiS_pos m c _ (Nat.succ_ne_zero _)]
  iintro ⟨⟨⟨HS1, ⟨%d2, %hd2, HS2⟩⟩, Hg⟩, Ho, ⟨%d0, H0⟩, ⟨%d1, H1⟩, ⟨%d2', H2⟩, ⟨%d3, H3⟩, ⟨%d4, H4⟩, ⟨%d5, H5⟩, ⟨%d6, H6⟩⟩
  obtain rfl : d2 = support2 m c := hd2.eq_support2 m h2
  iapply ((runOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 5 t) (support2 m c)).2 Set.univ _)
  isplitl [H1]; · iexact H1
  isplitl [H5]; · iexact H5
  isplitl [H6]; · iexists _; iexact H6
  isplitl [HS2]; · iexact HS2
  iintro ⟨H1, H5, ⟨%f6, H6⟩, HS2⟩
  isplitl [HS1 HS2 Hg]
  · isplitl [HS1 HS2]
    · isplitl [HS1]
      · iexact HS1
      iexists _; isplitr
      · ipureintro; exact hd2.of_all m h2
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact runOut_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 5 t) (support2 m c) f6

/-- The body at any point: one of the three cases. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val < 25
    · exact sound_stripe m c t h0 h1
    · exact sound_out m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, gridN]; omega), PhiA_scratch]
  iintro ⟨⟨HS1, ⟨%d2, -, HS2⟩⟩, Hg⟩
  isplitl [HS1 HS2]
  · isplitl [HS1]
    · iexists _; iexact HS1
    iexists _; iexact HS2
  iexact Hg

/-! ## The run and the frame -/

set_option backward.isDefEq.respectTransparency.types false in
/-- Every weakly fair execution of the program terminates, faulting nowhere, with every array of the pipeline at what
    the proof data computes (an input as launched, the output overwritten block by block by what the body left at
    each write-back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.IdealPoints.lean ====
/-
  The grid of the fused two-layer kernel has 50 points: 25 row stripes of the adjacency matrix in a first sweep
  (points 0..24), the same 25 stripes in reverse order in a second sweep (points 25..49).  The body has three
  guarded parts.  The first (the product of the features with the first weight matrix, kept in the first
  scratch) runs at point 0 only; the second (one stripe of the hidden layer's product with the second weight
  matrix, written into rows [400 i, 400 i + 400) of the second scratch) runs in the first sweep; the third (one
  stripe of the output, a row-wise softmax) runs in the second sweep.  This module decides those three
  conditions over the grid, says where the output window is idle and where it is written back, and names the
  staging and scratch buffers the body is called with.
-/
import proofs.«143505_g55216099557796_cont_9to1c4b_742_7_alg».proof.Proof.Gen.KernelIdeal.Frame
import proofs.«143505_g55216099557796_cont_9to1c4b_742_7_alg».proof.Proof.Gen.KernelIdeal.Skeleton

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three guards over the grid -/

/-- The guard of the first part: both grid coordinates are zero. -/
abbrev guardFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The guard of the second part: the sweep coordinate is zero. -/
abbrev guardSweep0 (i : grid0.Coords) : Prop := k0_cond2 i = 1#1
/-- The guard of the third part: the sweep coordinate is one. -/
abbrev guardSweep1 (i : grid0.Coords) : Prop := k0_cond3 i = 1#1

theorem guardFirst_iff : ∀ t : Fin cfg0.N, guardFirst (grid0.coords t) ↔ t.val = 0 :=
  (by decide +kernel : ∀ t : Fin grid0.N, guardFirst (grid0.coords t) ↔ t.val = 0)
theorem guardSweep0_iff : ∀ t : Fin cfg0.N, guardSweep0 (grid0.coords t) ↔ t.val < 25 :=
  (by decide +kernel : ∀ t : Fin grid0.N, guardSweep0 (grid0.coords t) ↔ t.val < 25)
theorem guardSweep1_iff : ∀ t : Fin cfg0.N, guardSweep1 (grid0.coords t) ↔ 25 ≤ t.val :=
  (by decide +kernel : ∀ t : Fin grid0.N, guardSweep1 (grid0.coords t) ↔ 25 ≤ t.val)

/-- In the first sweep the stripe written into the second scratch starts at row 400 times the point's number. -/
theorem stripeOff_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- The output window is idle exactly in the first sweep, -/
theorem idle_6 : ∀ t : Fin cfg0.N, cfg0.idle 6 (grid0.coords t) = decide (t.val < 25) := by decide +kernel
/-- and written back exactly at the points of the second sweep. -/
theorem flush_6 : ∀ t : Fin cfg0.N, (cfg0.win 6).flush t = decide (25 ≤ t.val) :=
  (by decide +kernel : ∀ t : Fin grid0.N, win0_6.flush t = decide (25 ≤ t.val))
/-- In the second sweep the output block's row index runs down from 24: point t writes block 49 - t. -/
theorem outIndex_eq : ∀ t : Fin cfg0.N, 25 ≤ t.val → win0_6.index t = ![49 - t.val, 0] :=
  (by decide +kernel : ∀ t : Fin grid0.N, 25 ≤ t.val → win0_6.index t = ![49 - t.val, 0])
/-- The adjacency window's block at point t: stripe t in the first sweep, stripe 49 - t in the second. -/
theorem adjIndex_eq : ∀ t : Fin cfg0.N, win0_1.index t = ![if t.val < 25 then t.val else 49 - t.val, 0] :=
  (by decide +kernel : ∀ t : Fin grid0.N, win0_1.index t = ![if t.val < 25 then t.val else 49 - t.val, 0])

/-! ## The buffers the body is called with -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x64 .f32 := win0_6.stage (cfg0.slots t 6)
abbrev hs0_6 (t : Fin cfg0.N) : (ms0_6 t).IsWhole := hstage0_6 ((cfg0.slots t 6).cast nbuf0_6)
/-- The two scratch buffers: the first layer's support (features times first weights), and the second layer's
    support (hidden activations times second weights), filled one stripe per point of the first sweep. -/
abbrev scr1 : Memref sig .tc .vmem S10000x128 .f32 := Memref.whole cc0_scratch0
abbrev scr2 : Memref sig .tc .vmem S10000x64 .f32 := Memref.whole cc0_scratch1
theorem scr1_whole : (scr1).IsWhole := Memref.isWhole_whole _
theorem scr2_whole : (scr2).IsWhole := Memref.isWhole_whole _

/-- The class invariant with the two scratch buffers as memrefs owned at some contents. -/
theorem PhiA_scratch (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

end Cert.KernelIdeal.Hand

end
-- ==== Proof.IdealRuns.lean ====
/-
  The body of the fused kernel, run once in each of its three cases, on any whole staging and scratch buffers.
  Each run is stated over the buffers the case touches only; what a store leaves is recorded as the list of
  pieces written (newest first), found when the run hands the buffer to the continuation.
-/
import proofs.«143505_g55216099557796_cont_9to1c4b_742_7_alg».proof.Proof.IdealPoints
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- Second sweep (the third part alone): the adjacency stripe, the whole second scratch and the second bias are read,
    and the output's staging buffer is stored whole. -/
noncomputable def runOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : ¬guardSweep0 i) (hc2 : guardSweep1 i)
    (x1 : Vec F S400x10000 .f32) (x5 : Vec F S1x64 .f32) (s2 : Vec F S10000x64 .f32) :
    { LO : List (View.Piece (Elt F) S400x64 .f32) //
      ∀ (E : Set ℕ) (K : PUnit → sProp 𝕄),
        iprop(owns (c : Thread nD τ) arg3 fullShare x1 ∗ owns (c : Thread nD τ) arg7 fullShare x5 ∗ (∃ d, owns (c : Thread nD τ) arg8 fullShare d) ∗ owns (c : Thread nD τ) arg10 fullShare s2
            ∗ (iprop(owns (c : Thread nD τ) arg3 fullShare x1 ∗ owns (c : Thread nD τ) arg7 fullShare x5 ∗ (∃ f, arg8.view.loc (c : Thread nD τ) ↦[arg8.view.set]{fullShare} arg8.view.writes (Elt F) f LO) ∗ owns (c : Thread nD τ) arg10 fullShare s2) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f1, %hf1, H1⟩, ⟨%f5, %hf5, H5⟩, ⟨%d6, %f6, -, H6⟩, ⟨%fs1, %hfs1, HS1⟩, Hk⟩
    obtain rfl := harg3.eq_unread hf1; obtain rfl := harg7.eq_unread hf5; obtain rfl := harg10.eq_unread hfs1
    sl_exec (disch := first | exact hc0 | exact hc1 | exact hc2)
    sl_step
    iapply Hk
    isplitl [H1]
    · iexists _; isplitr; · ipureintro; exact harg3.read_unread _
      iexact H1
    isplitl [H5]
    · iexists _; isplitr; · ipureintro; exact harg7.read_unread _
      iexact H5
    isplitl [H6]
    · iexists _; iexact H6
    iexists _; isplitr; · ipureintro; exact harg10.read_unread _
    iexact HS1

set_option maxHeartbeats 1000000 in
/-- Point 0 (the first and second parts): the features and the first weights are read and their product stored
    over the whole first scratch; then the adjacency stripe, that scratch, the first bias and the second weights are
    read and one stripe stored into the second scratch, whose other rows keep what they held. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32) :
    { LS : List (View.Piece (Elt F) S10000x128 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ owns (c : Thread nD τ) arg10 fullShare d2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg9.view.loc (c : Thread nD τ) ↦[arg9.view.set]{fullShare} arg9.view.writes (Elt F) f LS.1) ∗ (arg10.view.loc (c : Thread nD τ) ↦[arg10.view.set]{fullShare} arg10.view.writes (Elt F) (harg10.unread d2) LS.2)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS1]; · iexists _; iexact HS1
    iexact HS2

set_option maxHeartbeats 1000000 in
/-- Later points of the first sweep (the second part alone): the adjacency stripe, the first scratch, the first
    bias and the second weights are read and one stripe stored into the second scratch. -/
noncomputable def runStripe (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : guardSweep0 i) (hc2 : ¬guardSweep1 i)
    (x1 : Vec F S400x10000 .f32) (x3 : Vec F S1x128 .f32) (x4 : Vec F S128x64 .f32) (s1 : Vec F S10000x128 .f32) (d2 : Vec F S10000x64 .f32) :
    { LS : List (View.Piece (Elt F) S10000x64 .f32) //
      ∀ (E : Set ℕ) (K : PUnit → sProp 𝕄),
        iprop(owns (c : Thread nD τ) arg3 fullShare x1 ∗ owns (c : Thread nD τ) arg5 fullShare x3 ∗ owns (c : Thread nD τ) arg6 fullShare x4 ∗ owns (c : Thread nD τ) arg9 fullShare s1 ∗ owns (c : Thread nD τ) arg10 fullShare d2
            ∗ (iprop(owns (c : Thread nD τ) arg3 fullShare x1 ∗ owns (c : Thread nD τ) arg5 fullShare x3 ∗ owns (c : Thread nD τ) arg6 fullShare x4 ∗ owns (c : Thread nD τ) arg9 fullShare s1 ∗ (arg10.view.loc (c : Thread nD τ) ↦[arg10.view.set]{fullShare} arg10.view.writes (Elt F) (harg10.unread d2) LS)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10) K } := by
  refine ⟨?_, fun E K => ?run⟩
  case run =>
    simp only [cc0__fused_body_eq_skeleton]; unfold cc0__fused_body_skel
    unfold owns
    iintro ⟨⟨%f1, %hf1, H1⟩, ⟨%f3, %hf3, H3⟩, ⟨%f4, %hf4, H4⟩, ⟨%fs1, %hfs1, HS1⟩, ⟨%fs2, %hfs2, HS2⟩, Hk⟩
    obtain rfl := harg3.eq_unread hf1; obtain rfl := harg5.eq_unread hf3; obtain rfl := harg6.eq_unread hf4; obtain rfl := harg9.eq_unread hfs1; obtain rfl := harg10.eq_unread hfs2
    sl_exec (disch := first | exact hc0 | exact hc1 | exact hc2)
    sl_step
    iapply Hk
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [HS1]
    · iexists _; isplitr; · ipureintro; exact harg9.read_unread _
      iexact HS1
    iexact HS2

theorem zeros2 : (![0, 0] : Fin 2 → ℕ) = fun _ => 0 := funext fun a => by fin_cases a <;> rfl

/-- One store through the whole-shape rectangle at zero offsets, read back, is its payload. -/
theorem read_whole_store {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- What the second sweep's store leaves in the output's staging buffer: the softmax payload of the stripe, the second
    scratch and the second bias as the buffers held them. -/
theorem runOut_read (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : ¬guardSweep0 i) (hc2 : guardSweep1 i)
    (x1 : Vec F S400x10000 .f32) (x5 : Vec F S1x64 .f32) (s2 : Vec F S10000x64 .f32) (f : arg8.view.ty.Contents (Elt F)) :
    arg8.view.read (Elt F) (arg8.view.writes (Elt F) f (runOut c i arg2 harg2 arg3 harg3 arg4 harg4 arg5 harg5 arg6 harg6 arg7 harg7 arg8 harg8 arg9 harg9 arg10 harg10 hc0 hc1 hc2 x1 x5 s2).1) = k0_pay3 x1 s2 x5 := by
  unfold runOut
  dsimp only
  refine (read_whole_store arg8.view f zeros2 _ _).trans ?_
  simp only [View.readAt_eq_ld, harg3.read_unread, harg10.read_unread, harg7.read_unread,
    View.ld_unit_zero (S := S400x10000) zeros2, View.ld_unit_zero (S := S10000x64) zeros2, View.ld_unit_zero (S := S1x64) zeros2]

/-- What point 0 leaves in the first scratch: the product of the features with the first weights. -/
theorem runFirst_read1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 hc0 hc1 hc2 x0 x1 x2 x3 x4 d2).1.1) = k0_pay1 x0 x2 := by
  unfold runFirst
  dsimp only
  sl_unfold_run_names
  refine (read_whole_store arg9.view f zeros2 _ _).trans ?_
  simp only [View.readAt_eq_ld, harg2.read_unread, harg4.read_unread,
    View.ld_unit_zero (S := S10000x128) zeros2, View.ld_unit_zero (S := S128x128) zeros2]

/-- What point 0 leaves in the second scratch, inside the stripe it stores (rows [o, o + 400)): the stripe's
    payload, over the first scratch as just written. -/
theorem runFirst_read2_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg10.view.read (Elt F) (arg10.view.writes (Elt F) (harg10.unread d2) (runFirst c i arg2 harg2 arg3 harg3 arg4 harg4 arg5 harg5 arg6 harg6 arg7 harg7 arg8 harg8 arg9 harg9 arg10 harg10 hc0 hc1 hc2 x0 x1 x2 x3 x4 d2).1.2) y
      = k0_pay2 x1 (k0_pay1 x0 x2) x3 x4 x := by
  unfold runFirst
  dsimp only
  sl_unfold_run_names
  refine (View.read_writes_cons_rows_of_mem arg10.view _ _ _ [] y x hoff hx0 hx1).trans ?_
  simp only [View.readAt_eq_ld, harg2.read_unread, harg3.read_unread, harg4.read_unread, harg5.read_unread, harg6.read_unread,
    View.readCov_unit_zero (S := S10000x128) arg9.view zeros2,
    View.ld_unit_zero (S := S10000x128) zeros2, View.ld_unit_zero (S := S128x128) zeros2, View.ld_unit_zero (S := S400x10000) zeros2,
    View.ld_unit_zero (S := S1x128) zeros2, View.ld_unit_zero (S := S128x64) zeros2]

/-- and outside that stripe, what the scratch held. -/
theorem runFirst_read2_not_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : guardFirst i) (hc1 : guardSweep0 i) (hc2 : ¬guardSweep1 i)
    (x0 : Vec F S10000x128 .f32) (x1 : Vec F S400x10000 .f32) (x2 : Vec F S128x128 .f32) (x3 : Vec F S1x128 .f32) (x4 : Vec F S128x64 .f32) (d2 : Vec F S10000x64 .f32)
    (o : ℕ) (hoff : k0_off1 i = ![o, 0]) (y : S10000x64.Idx)
    (h : (y (0 : Fin 2)).val < o ∨ o + 400 ≤ (y (0 : Fin 2)).val) :
    arg10.view.read (Elt F) (arg10.view.writes (Elt F) (harg10.unread d2) (runFirst c i arg2 harg2 arg3 harg3 arg4 harg4 arg5 harg5 arg6 harg6 arg7 harg7 arg8 harg8 arg9 harg9 arg10 harg10 hc0 hc1 hc2 x0 x1 x2 x3 x4 d2).1.2) y = d2 y := by
  unfold runFirst
  dsimp only
  sl_unfold_run_names
  refine (View.read_writes_cons_rows_of_not_mem arg10.view _ _ _ [] y hoff rfl h).trans ?_
  rw [View.writes_nil, harg10.read_unread]

/-- What a later point of the first sweep leaves in the second scratch, inside the stripe it stores: the stripe's
    payload over the first scratch as the point found it, -/
theorem runStripe_read_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : guardSweep0 i) (hc2 : ¬guardSweep1 i)
    (x1 : Vec F S400x10000 .f32) (x3 : Vec F S1x128 .f32) (x4 : Vec F S128x64 .f32) (s1 : Vec F S10000x128 .f32) (d2 : Vec F S10000x64 .f32)
    (o : ℕ) (hoff : k0_off1 i = ![o, 0]) (y : S10000x64.Idx) (x : S400x64.Idx)
    (hx0 : (y (0 : Fin 2)).val = o + (x (0 : Fin 2)).val) (hx1 : (y (1 : Fin 2)).val = (x (1 : Fin 2)).val) :
    arg10.view.read (Elt F) (arg10.view.writes (Elt F) (harg10.unread d2) (runStripe c i arg2 harg2 arg3 harg3 arg4 harg4 arg5 harg5 arg6 harg6 arg7 harg7 arg8 harg8 arg9 harg9 arg10 harg10 hc0 hc1 hc2 x1 x3 x4 s1 d2).1) y
      = k0_pay2 x1 s1 x3 x4 x := by
  unfold runStripe
  dsimp only
  sl_unfold_run_names
  refine (View.read_writes_cons_rows_of_mem arg10.view _ _ _ [] y x hoff hx0 hx1).trans ?_
  simp only [View.readAt_eq_ld, harg3.read_unread, harg5.read_unread, harg6.read_unread, harg9.read_unread,
    View.ld_unit_zero (S := S10000x128) zeros2, View.ld_unit_zero (S := S400x10000) zeros2,
    View.ld_unit_zero (S := S1x128) zeros2, View.ld_unit_zero (S := S128x64) zeros2]

/-- and outside that stripe, what the scratch held. -/
theorem runStripe_read_not_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .f32) (harg9 : arg9.IsWhole) (arg10 : Memref sig .tc .vmem S10000x64 .f32) (harg10 : arg10.IsWhole) (hc0 : ¬guardFirst i) (hc1 : guardSweep0 i) (hc2 : ¬guardSweep1 i)
    (x1 : Vec F S400x10000 .f32) (x3 : Vec F S1x128 .f32) (x4 : Vec F S128x64 .f32) (s1 : Vec F S10000x128 .f32) (d2 : Vec F S10000x64 .f32)
    (o : ℕ) (hoff : k0_off1 i = ![o, 0]) (y : S10000x64.Idx)
    (h : (y (0 : Fin 2)).val < o ∨ o + 400 ≤ (y (0 : Fin 2)).val) :
    arg10.view.read (Elt F) (arg10.view.writes (Elt F) (harg10.unread d2) (runStripe c i arg2 harg2 arg3 harg3 arg4 harg4 arg5 harg5 arg6 harg6 arg7 harg7 arg8 harg8 arg9 harg9 arg10 harg10 hc0 hc1 hc2 x1 x3 x4 s1 d2).1) y = d2 y := by
  unfold runStripe
  dsimp only
  sl_unfold_run_names
  refine (View.read_writes_cons_rows_of_not_mem arg10.view _ _ _ [] y hoff rfl h).trans ?_
  rw [View.writes_nil, harg10.read_unread]

end Cert.KernelIdeal.Hand

end
-- ==== Proof.IdealTrack.lean ====
/-
  What the fused kernel holds after each of its 50 grid points, and the run of the whole program.

  The first scratch is written once, at point 0, with the product of the features and the first weight matrix
  ("the first support"), and only read afterwards.  The second scratch is filled one stripe of 400 rows per point
  of the first sweep: after point k (k < 25) its rows below 400 (k + 1) hold, stripe by stripe, the hidden layer
  (the adjacency stripe times the first support, plus the first bias, clamped below at zero) times the second
  weight matrix ("the second support"); the rows not yet written hold whatever they held.  In the second sweep the
  whole second support is read, and the output's staging buffer receives the row-wise softmax of the adjacency
  stripe times the second support plus the second bias.  The invariant carried between points says exactly this.
-/
import proofs.«143505_g55216099557796_cont_9to1c4b_742_7_alg».proof.Proof.IdealRuns
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx (ix2 eq_ix2 idx2_lt0 idx2_lt1)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem gridN : cfg0.N = 50 := N_0
theorem gridN_pos : 0 < cfg0.N := by rw [gridN]; omega

/-- The first grid point. -/
abbrev pt0 : Fin cfg0.N := ⟨0, gridN_pos⟩

/-! ## The two supports, as functions of the argument blocks -/

/-- The first support: features times first weights, from the blocks of point 0 (both windows hold their whole
    array at every point). -/
def support1 (c : Dev nD) : Vec F S10000x128 .f32 := k0_pay1 (iblk m c 0 pt0) (iblk m c 2 pt0)

/-- Stripe n of the second support: from the adjacency block, the first bias and the second weights of point n. -/
def stripe2 (c : Dev nD) (n : ℕ) (h : n < cfg0.N) : Vec F S400x64 .f32 :=
  k0_pay2 (iblk m c 1 ⟨n, h⟩) (support1 m c) (iblk m c 3 ⟨n, h⟩) (iblk m c 4 ⟨n, h⟩)

theorem stripeNo_lt (y : S10000x64.Idx) : (y (0 : Fin 2)).val / 400 < cfg0.N := by
  have := idx2_lt0 y; rw [gridN]; omega

/-- The second support, whole: row r is row r mod 400 of stripe r div 400. -/
def support2 (c : Dev nD) : Vec F S10000x64 .f32 := fun y =>
  stripe2 m c ((y (0 : Fin 2)).val / 400) (stripeNo_lt y)
    (ix2 ⟨(y (0 : Fin 2)).val % 400, Nat.mod_lt _ (by omega)⟩ ⟨(y (1 : Fin 2)).val, idx2_lt1 y⟩)

/-- Contents d of the second scratch have their first n stripes (at most 25) done. -/
def StripesDone (c : Dev nD) (n : ℕ) (d : Vec F S10000x64 .f32) : Prop :=
  ∀ (k : ℕ) (hk : k < cfg0.N), k < n → k < 25 → ∀ (y : S10000x64.Idx) (x : S400x64.Idx),
    (y (0 : Fin 2)).val = 400 * k + (x (0 : Fin 2)).val → (y (1 : Fin 2)).val = (x (1 : Fin 2)).val → d y = stripe2 m c k hk x

/-- Once all 25 stripes are done, more points change nothing. -/
theorem StripesDone.of_all {c : Dev nD} {n n' : ℕ} {d : Vec F S10000x64 .f32} (h : StripesDone m c n d) (hn : 25 ≤ n) :
    StripesDone m c n' d := fun k hk _ hk25 y x h0 h1 => h k hk (by omega) hk25 y x h0 h1

/-- With all 25 stripes done the contents are the second support. -/
theorem StripesDone.eq_support2 {c : Dev nD} {n : ℕ} {d : Vec F S10000x64 .f32} (h : StripesDone m c n d) (hn : 25 ≤ n) :
    d = support2 m c := by
  funext y
  have hy := idx2_lt0 y
  exact h ((y (0 : Fin 2)).val / 400) (stripeNo_lt y) (by omega) (by omega) y
    (ix2 ⟨(y (0 : Fin 2)).val % 400, Nat.mod_lt _ (by omega)⟩ ⟨(y (1 : Fin 2)).val, idx2_lt1 y⟩)
    (by show (y (0 : Fin 2)).val = 400 * ((y (0 : Fin 2)).val / 400) + (y (0 : Fin 2)).val % 400; omega) rfl

/-! ## The invariant between points -/

/-- Before point 0 the class's invariant (both scratch buffers at anything); before point n > 0 the first scratch
    at the first support, the second with its first n stripes done, the generator register at some state. -/
def PhiS (c : Dev nD) : ℕ → sProp 𝕄
  | 0 => Pipeline.ΦA spec0 c
  | n + 1 => iprop(iprop(owns (c : Thread nD τ) scr1 fullShare (support1 m c) ∗ (∃ d, ⌜StripesDone m c (n + 1) d⌝ ∗ owns (c : Thread nD τ) scr2 fullShare d)) ∗ (∃ r, prngReg c r))

theorem PhiS_pos (c : Dev nD) (n : ℕ) (hn : n ≠ 0) :
    PhiS m c n = iprop(iprop(owns (c : Thread nD τ) scr1 fullShare (support1 m c) ∗ (∃ d, ⌜StripesDone m c n d⌝ ∗ owns (c : Thread nD τ) scr2 fullShare d)) ∗ (∃ r, prngReg c r)) := by
  cases n with
  | zero => exact absurd rfl hn
  | succ n => rfl

/-! ## The proof data -/

/-- The arrays as the region finds them; after the body each input's buffer at its block and the output's at the
    softmax payload of the point's adjacency block, the second support and the second bias (read only where the
    output is live: the second sweep); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (support2 m c) (iblk m c 5 t)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = k0_pay3 (iblk m c 1 t) (support2 m c) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The second scratch, one point on -/

/-- Point 0 stores stripe 0: one stripe is done, whatever the scratch held. -/
theorem stripes_first (c : Dev nD) (hc0 : guardFirst (grid0.coords pt0)) (hc1 : guardSweep0 (grid0.coords pt0)) (hc2 : ¬guardSweep1 (grid0.coords pt0))
    (d2 : Vec F S10000x64 .f32) :
    StripesDone m c 1 (scr2.view.read (Elt F) (scr2.view.writes (Elt F) (scr2_whole.unread d2)
      (runFirst c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2).1.2)) := by
  intro k hk hk1 _ y x h0 h1
  obtain rfl : k = 0 := by omega
  exact runFirst_read2_mem c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2
    (400 * 0) (stripeOff_eq pt0 (by show (0 : ℕ) < 25; omega)) y x h0 h1

/-- A later point t of the first sweep stores stripe t: with t stripes done before, t + 1 are done after. -/
theorem stripes_step (c : Dev nD) (t : Fin cfg0.N) (ht : t.val < 25)
    (hc0 : ¬guardFirst (grid0.coords t)) (hc1 : guardSweep0 (grid0.coords t)) (hc2 : ¬guardSweep1 (grid0.coords t))
    (d2 : Vec F S10000x64 .f32) (hd : StripesDone m c t.val d2) :
    StripesDone m c (t.val + 1) (scr2.view.read (Elt F) (scr2.view.writes (Elt F) (scr2_whole.unread d2)
      (runStripe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2).1)) := by
  intro k hk hk1 hk25 y x h0 h1
  have hx := idx2_lt0 x
  by_cases hkt : k = t.val
  · subst hkt
    exact runStripe_read_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2
      (400 * t.val) (stripeOff_eq t ht) y x h0 h1
  · exact (runStripe_read_not_mem c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2
      (400 * t.val) (stripeOff_eq t ht) y (by omega)).trans (hd k hk (by omega) hk25 y x h0 h1)

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

/-- In the first sweep the output's buffer is handed back as found. -/
theorem leaves_6_idle (c : Dev nD) (t : Fin cfg0.N) (ht : t.val < 25) :
    (dats m 0 c).leavesExact 6 t = iprop(∃ d, owns (c : Thread nD τ) (ms0_6 t) fullShare ((dats m 0 c).before 6 t d)) :=
  (dats m 0 c).leavesExact_idle 6 t (by rw [idle_6 t]; exact decide_eq_true ht) (by rw [flush_6 t]; exact decide_eq_false (by omega))

/-- In the second sweep it is left at the point's softmax payload. -/
theorem leaves_6_live (c : Dev nD) (t : Fin cfg0.N) (ht : 25 ≤ t.val) :
    (dats m 0 c).leavesExact 6 t = owns (c : Thread nD τ) (ms0_6 t) fullShare ((dats m 0 c).after 6 t) := by
  unfold Dat.leavesExact; rw [idle_6 t, decide_eq_false (by omega)]

set_option maxHeartbeats 4000000 in
/-- Point 0. -/
theorem sound_first (c : Dev nD) (t : Fin cfg0.N) (h0 : t.val = 0) :
    bodyPre m c t ⊢ wp frame (wpE (defs₀ (F := F)) Variants.none c none) Set.univ (bodyAt0 t) (fun _ => bodyPost m c t) := by
  obtain rfl : t = pt0 := Fin.ext h0
  have hc0 : guardFirst (grid0.coords pt0) := (guardFirst_iff pt0).mpr rfl
  have hc1 : guardSweep0 (grid0.coords pt0) := (guardSweep0_iff pt0).mpr (by show (0 : ℕ) < 25; omega)
  have hc2 : ¬guardSweep1 (grid0.coords pt0) := fun h => absurd ((guardSweep1_iff pt0).mp h) (by show ¬ 25 ≤ (0 : ℕ); omega)
  unfold bodyPre bodyPost bodyAt0
  simp only [before_0, before_1, before_2, before_3, before_4, before_5]
  rw [show (dats m 0 c).owesAt () (Fin.succ pt0) = (dats m 0 c).owesAt () (Fin.castSucc pt0) from rfl]
  rw [show (dats m 0 c).leavesExact 0 pt0 = owns (c : Thread nD τ) (ms0_0 pt0) fullShare ((dats m 0 c).after 0 pt0) from by
    unfold Dat.leavesExact; rw [live_0 pt0], after_0]
  rw [show (dats m 0 c).leavesExact 1 pt0 = owns (c : Thread nD τ) (ms0_1 pt0) fullShare ((dats m 0 c).after 1 pt0) from by
    unfold Dat.leavesExact; rw [live_1 pt0], after_1]
  rw [show (dats m 0 c).leavesExact 2 pt0 = owns (c : Thread nD τ) (ms0_2 pt0) fullShare ((dats m 0 c).after 2 pt0) from by
    unfold Dat.leavesExact; rw [live_2 pt0], after_2]
  rw [show (dats m 0 c).leavesExact 3 pt0 = owns (c : Thread nD τ) (ms0_3 pt0) fullShare ((dats m 0 c).after 3 pt0) from by
    unfold Dat.leavesExact; rw [live_3 pt0], after_3]
  rw [show (dats m 0 c).leavesExact 4 pt0 = owns (c : Thread nD τ) (ms0_4 pt0) fullShare ((dats m 0 c).after 4 pt0) from by
    unfold Dat.leavesExact; rw [live_4 pt0], after_4]
  rw [show (dats m 0 c).leavesExact 5 pt0 = owns (c : Thread nD τ) (ms0_5 pt0) fullShare ((dats m 0 c).after 5 pt0) from by
    unfold Dat.leavesExact; rw [live_5 pt0], after_5]
  rw [leaves_6_idle m c pt0 (by show (0 : ℕ) < 25; omega)]
  rw [Phi_succ, Phi_castSucc]
  rw [show PhiS m c (pt0 : Fin cfg0.N).val = Pipeline.ΦA spec0 c from rfl, PhiA_scratch]
  rw [PhiS_pos m c _ (Nat.succ_ne_zero _)]
  iintro ⟨⟨⟨⟨%ds1, HS1⟩, ⟨%d2, HS2⟩⟩, Hg⟩, Ho, ⟨%d0, H0⟩, ⟨%d1, H1⟩, ⟨%d2', H2⟩, ⟨%d3, H3⟩, ⟨%d4, H4⟩, ⟨%d5, H5⟩, ⟨%d6, H6⟩⟩
  iapply ((runFirst c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2).2 Set.univ _)
  isplitl [H0]; · iexact H0
  isplitl [H1]; · iexact H1
  isplitl [H2]; · iexact H2
  isplitl [H3]; · iexact H3
  isplitl [H4]; · iexact H4
  isplitl [HS1]; · iexists _; iexact HS1
  isplitl [HS2]; · iexact HS2
  iintro ⟨H0, H1, H2, H3, H4, ⟨%f1, HS1⟩, HS2⟩
  isplitl [HS1 HS2 Hg]
  · isplitl [HS1 HS2]
    · isplitl [HS1]
      · unfold owns; iexists _; isplitr
        swap; · iexact HS1
        ipureintro
        exact runFirst_read1 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) scr1 scr1_whole scr2 scr2_whole hc0 hc1 hc2 (iblk m c 0 pt0) (iblk m c 1 pt0) (iblk m c 2 pt0) (iblk m c 3 pt0) (iblk m c 4 pt0) d2 f1
      iexists _; isplitr
      · ipureintro; exact stripes_first m c hc0 hc1 hc2 d2
      unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 4000000 in
/-- The later points of the first sweep. -/
theorem sound_stripe (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  have hc0 : ¬guardFirst (grid0.coords t) := fun h => h0 ((guardFirst_iff t).mp h)
  have hc1 : guardSweep0 (grid0.coords t) := (guardSweep0_iff t).mpr h1
  have hc2 : ¬guardSweep1 (grid0.coords t) := fun h => absurd ((guardSweep1_iff t).mp h) (by omega)
  unfold bodyPre bodyPost bodyAt0
  simp only [before_0, before_1, before_2, before_3, before_4, before_5]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_0 t], after_0]
  rw [show (dats m 0 c).leavesExact 1 t = owns (c : Thread nD τ) (ms0_1 t) fullShare ((dats m 0 c).after 1 t) from by
    unfold Dat.leavesExact; rw [live_1 t], after_1]
  rw [show (dats m 0 c).leavesExact 2 t = owns (c : Thread nD τ) (ms0_2 t) fullShare ((dats m 0 c).after 2 t) from by
    unfold Dat.leavesExact; rw [live_2 t], after_2]
  rw [show (dats m 0 c).leavesExact 3 t = owns (c : Thread nD τ) (ms0_3 t) fullShare ((dats m 0 c).after 3 t) from by
    unfold Dat.leavesExact; rw [live_3 t], after_3]
  rw [show (dats m 0 c).leavesExact 4 t = owns (c : Thread nD τ) (ms0_4 t) fullShare ((dats m 0 c).after 4 t) from by
    unfold Dat.leavesExact; rw [live_4 t], after_4]
  rw [show (dats m 0 c).leavesExact 5 t = owns (c : Thread nD τ) (ms0_5 t) fullShare ((dats m 0 c).after 5 t) from by
    unfold Dat.leavesExact; rw [live_5 t], after_5]
  rw [leaves_6_idle m c t h1]
  rw [Phi_succ, Phi_castSucc, PhiS_pos m c _ h0, PhiS_pos m c _ (Nat.succ_ne_zero _)]
  iintro ⟨⟨⟨HS1, ⟨%d2, %hd2, HS2⟩⟩, Hg⟩, Ho, ⟨%d0, H0⟩, ⟨%d1, H1⟩, ⟨%d2', H2⟩, ⟨%d3, H3⟩, ⟨%d4, H4⟩, ⟨%d5, H5⟩, ⟨%d6, H6⟩⟩
  iapply ((runStripe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 3 t) (iblk m c 4 t) (support1 m c) d2).2 Set.univ _)
  isplitl [H1]; · iexact H1
  isplitl [H3]; · iexact H3
  isplitl [H4]; · iexact H4
  isplitl [HS1]; · iexact HS1
  isplitl [HS2]; · iexact HS2
  iintro ⟨H1, H3, H4, HS1, HS2⟩
  isplitl [HS1 HS2 Hg]
  · isplitl [HS1 HS2]
    · isplitl [HS1]
      · iexact HS1
      iexists _; isplitr
      · ipureintro; exact stripes_step m c t h1 hc0 hc1 hc2 d2 hd2
      unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 4000000 in
/-- The second sweep. -/
theorem sound_out (c : Dev nD) (t : Fin cfg0.N) (h2 : 25 ≤ t.val) :
    bodyPre m c t ⊢ wp frame (wpE (defs₀ (F := F)) Variants.none c none) Set.univ (bodyAt0 t) (fun _ => bodyPost m c t) := by
  have hc0 : ¬guardFirst (grid0.coords t) := fun h => absurd ((guardFirst_iff t).mp h) (by omega)
  have hc1 : ¬guardSweep0 (grid0.coords t) := fun h => absurd ((guardSweep0_iff t).mp h) (by omega)
  have hc2 : guardSweep1 (grid0.coords t) := (guardSweep1_iff t).mpr h2
  unfold bodyPre bodyPost bodyAt0
  simp only [before_0, before_1, before_2, before_3, before_4, before_5]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [live_0 t], after_0]
  rw [show (dats m 0 c).leavesExact 1 t = owns (c : Thread nD τ) (ms0_1 t) fullShare ((dats m 0 c).after 1 t) from by
    unfold Dat.leavesExact; rw [live_1 t], after_1]
  rw [show (dats m 0 c).leavesExact 2 t = owns (c : Thread nD τ) (ms0_2 t) fullShare ((dats m 0 c).after 2 t) from by
    unfold Dat.leavesExact; rw [live_2 t], after_2]
  rw [show (dats m 0 c).leavesExact 3 t = owns (c : Thread nD τ) (ms0_3 t) fullShare ((dats m 0 c).after 3 t) from by
    unfold Dat.leavesExact; rw [live_3 t], after_3]
  rw [show (dats m 0 c).leavesExact 4 t = owns (c : Thread nD τ) (ms0_4 t) fullShare ((dats m 0 c).after 4 t) from by
    unfold Dat.leavesExact; rw [live_4 t], after_4]
  rw [show (dats m 0 c).leavesExact 5 t = owns (c : Thread nD τ) (ms0_5 t) fullShare ((dats m 0 c).after 5 t) from by
    unfold Dat.leavesExact; rw [live_5 t], after_5]
  rw [leaves_6_live m c t h2, after_6]
  rw [Phi_succ, Phi_castSucc, PhiS_pos m c _ (by omega), PhiS_pos m c _ (Nat.succ_ne_zero _)]
  iintro ⟨⟨⟨HS1, ⟨%d2, %hd2, HS2⟩⟩, Hg⟩, Ho, ⟨%d0, H0⟩, ⟨%d1, H1⟩, ⟨%d2', H2⟩, ⟨%d3, H3⟩, ⟨%d4, H4⟩, ⟨%d5, H5⟩, ⟨%d6, H6⟩⟩
  obtain rfl : d2 = support2 m c := hd2.eq_support2 m h2
  iapply ((runOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 5 t) (support2 m c)).2 Set.univ _)
  isplitl [H1]; · iexact H1
  isplitl [H5]; · iexact H5
  isplitl [H6]; · iexists _; iexact H6
  isplitl [HS2]; · iexact HS2
  iintro ⟨H1, H5, ⟨%f6, H6⟩, HS2⟩
  isplitl [HS1 HS2 Hg]
  · isplitl [HS1 HS2]
    · isplitl [HS1]
      · iexact HS1
      iexists _; isplitr
      · ipureintro; exact hd2.of_all m h2
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact runOut_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr1 scr1_whole scr2 scr2_whole hc0 hc1 hc2 (iblk m c 1 t) (iblk m c 5 t) (support2 m c) f6

/-- The body at any point: one of the three cases. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val < 25
    · exact sound_stripe m c t h0 h1
    · exact sound_out m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, gridN]; omega), PhiA_scratch]
  iintro ⟨⟨HS1, ⟨%d2, -, HS2⟩⟩, Hg⟩
  isplitl [HS1 HS2]
  · isplitl [HS1]
    · iexists _; iexact HS1
    iexists _; iexact HS2
  iexact Hg

/-! ## The run and the frame -/

set_option backward.isDefEq.respectTransparency.types false in
/-- Every weakly fair execution of the program terminates, faulting nowhere, with every array of the pipeline at what
    the proof data computes (an input as launched, the output overwritten block by block by what the body left at
    each write-back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.IdealOutput.lean ====
/-
  The output array after the run, as one function of the argument blocks.

  Point t of the second sweep (25 ≤ t ≤ 49) writes back block 49 - t of the output: rows [400 (49 - t), 400 (49 - t) + 400).
  So row r of the final array is row r mod 400 of what point 49 - r div 400 left in the staging buffer: the softmax
  payload of that point's adjacency stripe, the second support and the second bias.  The 25 blocks tile the array.
-/
import proofs.«143505_g55216099557796_cont_9to1c4b_742_7_alg».proof.Proof.IdealTrack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx (ix2 eq_ix2 idx2_lt0 idx2_lt1)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point n leaves in the output's staging buffer. -/
def outStripe (c : Dev nD) (n : ℕ) (h : n < cfg0.N) : Vec F S400x64 .f32 :=
  k0_pay3 (iblk m c 1 ⟨n, h⟩) (support2 m c) (iblk m c 5 ⟨n, h⟩)

theorem outStripe_congr (c : Dev nD) {n n' : ℕ} (h : n < cfg0.N) (h' : n' < cfg0.N) (e : n = n') {x x' : S400x64.Idx} (ex : x = x') :
    outStripe m c n h x = outStripe m c n' h' x' := by subst e; subst ex; rfl

theorem outPoint_lt (y : S10000x64.Idx) : 49 - (y (0 : Fin 2)).val / 400 < cfg0.N := by rw [gridN]; omega

/-- The output array: row r from the point that writes back the block holding it. -/
def outArr (c : Dev nD) : Vec F S10000x64 .f32 := fun y =>
  outStripe m c (49 - (y (0 : Fin 2)).val / 400) (outPoint_lt y)
    (ix2 ⟨(y (0 : Fin 2)).val % 400, Nat.mod_lt _ (by omega)⟩ ⟨(y (1 : Fin 2)).val, idx2_lt1 y⟩)

/-- What a point of the second sweep writes back is its block of the output array. -/
theorem flushed_eq (c : Dev nD) (t : Fin cfg0.N) (ht : 25 ≤ t.val) :
    (dats m 0 c).flushed 6 t = ((cfg0.win 6).blk t).view.read (Elt F) (outArr m c) := by
  show (cfg0.win 6).cut (grid0.coords t) ((dats m 0 c).after 6 t) = _
  rw [after_6]
  funext x
  show outStripe m c t.val t.isLt x = outArr m c (((cfg0.win 6).blk t).view.emb x)
  have hx0 : (x (0 : Fin 2)).val < 400 := (x (0 : Fin 2)).isLt
  have hN : t.val < 50 := lt_of_lt_of_eq t.isLt gridN
  have e0 : ((((cfg0.win 6).blk t).view.emb x) (0 : Fin 2)).val = (49 - t.val) * 400 + (x (0 : Fin 2)).val := by
    show win0_6.index t (0 : Fin 2) * 400 + 1 * (x (0 : Fin 2)).val = _
    rw [outIndex_eq t ht]
    show (49 - t.val) * 400 + 1 * (x (0 : Fin 2)).val = _
    omega
  have e1 : ((((cfg0.win 6).blk t).view.emb x) (1 : Fin 2)).val = (x (1 : Fin 2)).val := by
    show win0_6.index t (1 : Fin 2) * 64 + 1 * (x (1 : Fin 2)).val = _
    rw [outIndex_eq t ht]
    show 0 * 64 + 1 * (x (1 : Fin 2)).val = _
    omega
  unfold outArr
  refine outStripe_congr m c t.isLt (outPoint_lt _) (by rw [e0]; omega) ?_
  funext a
  match a with
  | ⟨0, _⟩ => exact Fin.ext (by show (x (0 : Fin 2)).val = ((((cfg0.win 6).blk t).view.emb x) (0 : Fin 2)).val % 400; rw [e0]; omega)
  | ⟨1, _⟩ => exact Fin.ext e1.symm

/-- An index of the output array is in point t's block iff each coordinate is in the block's range. -/
theorem mem_outBlk (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

/-- Every row is in the block some point of the second sweep writes back. -/
theorem out_cover (i : S10000x64.Idx) :
    ∃ t : Fin cfg0.N, (cfg0.win 6).flush t = true ∧ i ∈ ((cfg0.win 6).blk t).view.set := by
  have hi0 := idx2_lt0 i
  have hi1 := idx2_lt1 i
  have ht : 25 ≤ (⟨49 - (i (0 : Fin 2)).val / 400, outPoint_lt i⟩ : Fin cfg0.N).val := by
    show 25 ≤ 49 - (i (0 : Fin 2)).val / 400; omega
  refine ⟨⟨49 - (i (0 : Fin 2)).val / 400, outPoint_lt i⟩, ?_, ?_⟩
  · rw [flush_6]; exact decide_eq_true ht
  · rw [mem_outBlk, outIndex_eq _ ht]
    intro a
    match a with
    | ⟨0, _⟩ =>
      show (49 - (49 - (i (0 : Fin 2)).val / 400)) * 400 ≤ (i (0 : Fin 2)).val ∧ (i (0 : Fin 2)).val < (49 - (49 - (i (0 : Fin 2)).val / 400)) * 400 + 400
      omega
    | ⟨1, _⟩ =>
      show 0 * 64 ≤ (i (1 : Fin 2)).val ∧ (i (1 : Fin 2)).val < 0 * 64 + 64
      omega

/-- The output array after the run. -/
theorem out_final (c : Dev nD) : (dats m 0 c).arrAt 6 cfg0.N = outArr m c :=
  (dats m 0 c).arrAt_eq_of_cover 6 (outArr m c)
    (fun t hf => flushed_eq m c t (by rw [flush_6] at hf; exact of_decide_eq_true hf)) out_cover

/-- The run, with the output array named and the arguments unchanged. -/
theorem run_out : θ_run defs (onTc (τ := τ) (main (F := F))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (out_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Hand

end
-- ==== Proof.IdealRead.lean ====
/-
  The windows' blocks read at coordinates, as entries of the argument arrays.

  Five of the six input windows hold their whole array at every point; the adjacency window holds one stripe of 400
  rows: stripe t at point t of the first sweep, stripe 49 - t at point t of the second.  The two bias windows stage
  the biases as one-row matrices (a reshape on the host before the region).
-/
import proofs.«143505_g55216099557796_cont_9to1c4b_742_7_alg».proof.Proof.IdealTrack
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx
open Idealize.ShloMosaic.StableHlo

variable {F : FTy → Type} [FloatOps F]

variable (m : (ℓ : Loc nD τ sig) → Buf (Elt F) ℓ)

/-! ## The argument arrays -/

abbrev argX (c : Dev nD) : Vec F S10000x128 .f32 := m ((c.tc : Thread nD τ).loc main_arg0)
abbrev argA (c : Dev nD) : Vec F S10000x10000 .f32 := m ((c.tc : Thread nD τ).loc main_arg1)
abbrev argW1 (c : Dev nD) : Vec F S128x128 .f32 := m ((c.tc : Thread nD τ).loc main_arg2)
abbrev argB1 (c : Dev nD) : Vec F S128 .f32 := m ((c.tc : Thread nD τ).loc main_arg3)
abbrev argW2 (c : Dev nD) : Vec F S128x64 .f32 := m ((c.tc : Thread nD τ).loc main_arg4)
abbrev argB2 (c : Dev nD) : Vec F S64 .f32 := m ((c.tc : Thread nD τ).loc main_arg5)

/-! ## Block indices over the grid -/

theorem index_0 : ∀ t : Fin cfg0.N, win0_0.index t = ![0, 0] := (by decide +kernel : ∀ t : Fin grid0.N, win0_0.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])

/-! ## The biases as the region finds them: one-row matrices -/

theorem V_bias1 (c : Dev nD) :
    (V m c main_v0 : S1x128.Idx → Elt F .f32) = shapeCast S1x128 (argB1 m c) shapeCasts_S128_S1x128 := by
  dsimp only [V, hostOps0]; after_results; rfl

theorem V_bias2 (c : Dev nD) :
    (V m c main_v1 : S1x64.Idx → Elt F .f32) = shapeCast S1x64 (argB2 m c) shapeCasts_S64_S1x64 := by
  dsimp only [V, hostOps0]; after_results; rfl

/-! ## The blocks at coordinates -/

theorem blkX_apply (c : Dev nD) (t : Fin cfg0.N) (l : Fin 10000) (f : Fin 128) :
    iblk m c 0 t (ix2 l f) = argX m c (ix2 l f) := by
  show V m c main_arg0 (((cfg0.win 0).blk t).view.emb (ix2 l f)) = _
  rw [V_main_arg0]
  refine congrArg (argX m c) (funext fun a => Fin.ext ?_)
  match a with
  | ⟨0, _⟩ => show win0_0.index t (0 : Fin 2) * 10000 + 1 * l.val = l.val; rw [index_0 t]; show 0 * 10000 + 1 * l.val = l.val; omega
  | ⟨1, _⟩ => show win0_0.index t (1 : Fin 2) * 128 + 1 * f.val = f.val; rw [index_0 t]; show 0 * 128 + 1 * f.val = f.val; omega

theorem blkW1_apply (c : Dev nD) (t : Fin cfg0.N) (f : Fin 128) (h : Fin 128) :
    iblk m c 2 t (ix2 f h) = argW1 m c (ix2 f h) := by
  show V m c main_arg2 (((cfg0.win 2).blk t).view.emb (ix2 f h)) = _
  rw [V_main_arg2]
  refine congrArg (argW1 m c) (funext fun a => Fin.ext ?_)
  match a with
  | ⟨0, _⟩ => show win0_2.index t (0 : Fin 2) * 128 + 1 * f.val = f.val; rw [index_2 t]; show 0 * 128 + 1 * f.val = f.val; omega
  | ⟨1, _⟩ => show win0_2.index t (1 : Fin 2) * 128 + 1 * h.val = h.val; rw [index_2 t]; show 0 * 128 + 1 * h.val = h.val; omega

theorem blkW2_apply (c : Dev nD) (t : Fin cfg0.N) (h : Fin 128) (j : Fin 64) :
    iblk m c 4 t (ix2 h j) = argW2 m c (ix2 h j) := by
  show V m c main_arg4 (((cfg0.win 4).blk t).view.emb (ix2 h j)) = _
  rw [V_main_arg4]
  refine congrArg (argW2 m c) (funext fun a => Fin.ext ?_)
  match a with
  | ⟨0, _⟩ => show win0_4.index t (0 : Fin 2) * 128 + 1 * h.val = h.val; rw [index_4 t]; show 0 * 128 + 1 * h.val = h.val; omega
  | ⟨1, _⟩ => show win0_4.index t (1 : Fin 2) * 64 + 1 * j.val = j.val; rw [index_4 t]; show 0 * 64 + 1 * j.val = j.val; omega

/-- The adjacency window's block, given the stripe s the point holds. -/
theorem blkA_apply (c : Dev nD) (t : Fin cfg0.N) (s : ℕ) (hs : win0_1.index t = ![s, 0]) (p : Fin 400) (l : Fin 10000)
    (hb : 400 * s + p.val < 10000) :
    iblk m c 1 t (ix2 p l) = argA m c (ix2 ⟨400 * s + p.val, hb⟩ l) := by
  show V m c main_arg1 (((cfg0.win 1).blk t).view.emb (ix2 p l)) = _
  rw [V_main_arg1]
  refine congrArg (argA m c) (funext fun a => Fin.ext ?_)
  match a with
  | ⟨0, _⟩ => show win0_1.index t (0 : Fin 2) * 400 + 1 * p.val = 400 * s + p.val; rw [hs]; show s * 400 + 1 * p.val = 400 * s + p.val; omega
  | ⟨1, _⟩ => show win0_1.index t (1 : Fin 2) * 10000 + 1 * l.val = l.val; rw [hs]; show 0 * 10000 + 1 * l.val = l.val; omega

theorem adjIndex_first (t : Fin cfg0.N) (ht : t.val < 25) : win0_1.index t = ![t.val, 0] := by
  rw [adjIndex_eq t, if_pos ht]
theorem adjIndex_second (t : Fin cfg0.N) (ht : 25 ≤ t.val) : win0_1.index t = ![49 - t.val, 0] := by
  rw [adjIndex_eq t, if_neg (by omega)]

theorem blkB1_apply (c : Dev nD) (t : Fin cfg0.N) (h : Fin 128) :
    iblk m c 3 t (ix2 (0 : Fin 1) h) = argB1 m c (ix1 h) := by
  show V m c main_v0 (((cfg0.win 3).blk t).view.emb (ix2 (0 : Fin 1) h)) = _
  rw [V_bias1]
  refine shapeCast_apply _ _ _ (ix1 h) ?_
  rw [Shape.rowMajor_val_two, Shape.rowMajor_val_one]
  show h.val = (win0_3.index t (0 : Fin 2) * 1 + 1 * 0) * 128 + (win0_3.index t (1 : Fin 2) * 128 + 1 * h.val)
  rw [index_3 t]
  show h.val = (0 * 1 + 1 * 0) * 128 + (0 * 128 + 1 * h.val)
  omega

theorem blkB2_apply (c : Dev nD) (t : Fin cfg0.N) (j : Fin 64) :
    iblk m c 5 t (ix2 (0 : Fin 1) j) = argB2 m c (ix1 j) := by
  show V m c main_v1 (((cfg0.win 5).blk t).view.emb (ix2 (0 : Fin 1) j)) = _
  rw [V_bias2]
  refine shapeCast_apply _ _ _ (ix1 j) ?_
  rw [Shape.rowMajor_val_two, Shape.rowMajor_val_one]
  show j.val = (win0_5.index t (0 : Fin 2) * 1 + 1 * 0) * 64 + (win0_5.index t (1 : Fin 2) * 64 + 1 * j.val)
  rw [index_5 t]
  show j.val = (0 * 1 + 1 * 0) * 64 + (0 * 64 + 1 * j.val)
  omega

end Cert.KernelIdeal.Hand

end
-- ==== Proof.LibColumns.lean ====
/-
  Two layout operations of a column read at coordinates: a vector made a column, and a column spread over the columns
  of a matrix (what a keep-dimensions row reduction is followed by).
-/
import Idealize.ShloMosaic.Lib.ValueLayout

namespace Idealize.ShloMosaic.ValueIdx

open Idealize.ShloMosaic

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.IdealPayloads.lean ====
/-
  The three payloads of the fused kernel read at coordinates, on the extended reals.

  The first is a plain matrix product.  The second is, at (p, j), the sum over the hidden index h of
  max(Σ_l a(p, l) s1(l, h) + b(0, h), 0) times w(h, j).  The third is the row-wise softmax of the logits
  o(p, j) = Σ_k a(p, k) s2(k, j) + b(0, j): exp(o(p, j) - M(p)) over the row's sum of such exponentials, M(p) the
  row's maximum folded from minus infinity.
-/
import proofs.«143505_g55216099557796_cont_9to1c4b_742_7_alg».proof.Proof.Gen.KernelIdeal.Skeleton
import proofs.«143505_g55216099557796_cont_9to1c4b_742_7_alg».proof.Proof.LibColumns
import Idealize.ShloMosaic.PureOps.Ideal.Laws
import Idealize.ShloMosaic.Lib.ValueIdx

set_option maxRecDepth 16384

noncomputable section

namespace Cert.KernelIdeal.Payloads

open Cert.KernelIdeal Cert.KernelIdeal.Gen
open Idealize.ShloMosaic Idealize.ShloMosaic.ValueIdx

/-! ## The four contractions -/

theorem dotXW_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dotXW_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem dotXW_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem dotXW_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The contraction's sum over its one axis: row p of the left factor against column j of the right. -/
theorem dotXW_sum (a : FVec Ideal S10000x128 .f32) (b : FVec Ideal S128x128 .f32) (p : Fin 10000) (j : Fin 128) :
    ∑ q : dot_S10000x128_S128x128_S10000x128_1_0_0_1_n_n.contr.Idx, a (dot_S10000x128_S128x128_S10000x128_1_0_0_1_n_n.lhsIdx (ix2 p j) q) * b (dot_S10000x128_S128x128_S10000x128_1_0_0_1_n_n.rhsIdx (ix2 p j) q) = ∑ k : Fin 128, a (ix2 p k) * b (ix2 k j) := by
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j) ((contrEquiv1 dot_S10000x128_S128x128_S10000x128_1_0_0_1_n_n 128 rfl rfl).symm k) = ix2 p k := funext fun ax => Fin.ext (by
    match ax with
    | ⟨0, _⟩ => exact dotXW_lhs0 _ _
    | ⟨1, _⟩ => exact (dotXW_lhs1 _ _).trans hk)
  have er : dot_S10000x128_S128x128_S10000x128_1_0_0_1_n_n.rhsIdx (ix2 p j) ((contrEquiv1 dot_S10000x128_S128x128_S10000x128_1_0_0_1_n_n 128 rfl rfl).symm k) = ix2 k j := funext fun ax => Fin.ext (by
    match ax with
    | ⟨0, _⟩ => exact (dotXW_rhs0 _ _).trans hk
    | ⟨1, _⟩ => exact dotXW_rhs1 _ _)
  rw [el, er]

theorem dotAS1_lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem dotAS1_lhs1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem dotAS1_rhs0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem dotAS1_rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- The contraction's sum over its one axis: row p of the left factor against column j of the right. -/
theorem dotAS1_sum (a : FVec Ideal S400x10000 .f32) (b : FVec Ideal S10000x128 .f32) (p : Fin 400) (j : Fin 128) :
    ∑ q : dot_S400x10000_S10000x128_S400x128_1_0_0_1_n_n.contr.Idx, a (dot_S400x10000_S10000x128_S400x128_1_0_0_1_n_n.lhsIdx (ix2 p j) q) * b (dot_S400x10000_S10000x128_S400x128_1_0_0_1_n_n.rhsIdx (ix2 p j) q) = ∑ k : Fin 10000, a (ix2 p k) * b (ix2 k j) := by
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j) ((contrEquiv1 dot_S400x10000_S10000x128_S400x128_1_0_0_1_n_n 10000 rfl rfl).symm k) = ix2 p k := funext fun ax => Fin.ext (by
    match ax with
    | ⟨0, _⟩ => exact dotAS1_lhs0 _ _
    | ⟨1, _⟩ => exact (dotAS1_lhs1 _ _).trans hk)
  have er : dot_S400x10000_S10000x128_S400x128_1_0_0_1_n_n.rhsIdx (ix2 p j) ((contrEquiv1 dot_S400x10000_S10000x128_S400x128_1_0_0_1_n_n 10000 rfl rfl).symm k) = ix2 k j := funext fun ax => Fin.ext (by
    match ax with
    | ⟨0, _⟩ => exact (dotAS1_rhs0 _ _).trans hk
    | ⟨1, _⟩ => exact dotAS1_rhs1 _ _)
  rw [el, er]

theorem dotHW_lhs0 (i : S400x64.Idx) (q : dot_S400x128_S128x64_S400x64_1_0_0_1_n_n.contr.Idx) : (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem dotHW_lhs1 (i : S400x64.Idx) (q : dot_S400x128_S128x64_S400x64_1_0_0_1_n_n.contr.Idx) : (dot_S400x128_S128x64_S400x64_1_0_0_1_n_n.lhsIdx i q 1).val = (q ⟨0, by decide⟩).val :=
  dot_S400x128_S128x64_S400x64_1_0_0_1_n_n.lhsIdx_val_of_single rfl i q
theorem dotHW_rhs0 (i : S400x64.Idx) (q : dot_S400x128_S128x64_S400x64_1_0_0_1_n_n.contr.Idx) : (dot_S400x128_S128x64_S400x64_1_0_0_1_n_n.rhsIdx i q 0).val = (q ⟨0, by decide⟩).val :=
  dot_S400x128_S128x64_S400x64_1_0_0_1_n_n.rhsIdx_val_of_single rfl i q
theorem dotHW_rhs1 (i : S400x64.Idx) (q : dot_S400x128_S128x64_S400x64_1_0_0_1_n_n.contr.Idx) : (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl
/-- The contraction's sum over its one axis: row p of the left factor against column j of the right. -/
theorem dotHW_sum (a : FVec Ideal S400x128 .f32) (b : FVec Ideal S128x64 .f32) (p : Fin 400) (j : Fin 64) :
    ∑ q : dot_S400x128_S128x64_S400x64_1_0_0_1_n_n.contr.Idx, a (dot_S400x128_S128x64_S400x64_1_0_0_1_n_n.lhsIdx (ix2 p j) q) * b (dot_S400x128_S128x64_S400x64_1_0_0_1_n_n.rhsIdx (ix2 p j) q) = ∑ k : Fin 128, a (ix2 p k) * b (ix2 k j) := by
  rw [← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p j) ((contrEquiv1 dot_S400x128_S128x64_S400x64_1_0_0_1_n_n 128 rfl rfl).symm k) = ix2 p k := funext fun ax => Fin.ext (by
    match ax with
    | ⟨0, _⟩ => exact dotHW_lhs0 _ _
    | ⟨1, _⟩ => exact (dotHW_lhs1 _ _).trans hk)
  have er : dot_S400x128_S128x64_S400x64_1_0_0_1_n_n.rhsIdx (ix2 p j) ((contrEquiv1 dot_S400x128_S128x64_S400x64_1_0_0_1_n_n 128 rfl rfl).symm k) = ix2 k j := funext fun ax => Fin.ext (by
    match ax with
    | ⟨0, _⟩ => exact (dotHW_rhs0 _ _).trans hk
    | ⟨1, _⟩ => exact dotHW_rhs1 _ _)
  rw [el, er]

theorem dotAS2_lhs0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem dotAS2_lhs1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem dotAS2_rhs0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem dotAS2_rhs1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- The contraction's sum over its one axis: row p of the left factor against column j of the right. -/
theorem dotAS2_sum (a : FVec Ideal S400x10000 .f32) (b : FVec Ideal S10000x64 .f32) (p : Fin 400) (j : Fin 64) :
    ∑ q : dot_S400x10000_S10000x64_S400x64_1_0_0_1_n_n.contr.Idx, a (dot_S400x10000_S10000x64_S400x64_1_0_0_1_n_n.lhsIdx (ix2 p j) q) * b (dot_S400x10000_S10000x64_S400x64_1_0_0_1_n_n.rhsIdx (ix2 p j) q) = ∑ k : Fin 10000, a (ix2 p k) * b (ix2 k j) := by
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p j) ((contrEquiv1 dot_S400x10000_S10000x64_S400x64_1_0_0_1_n_n 10000 rfl rfl).symm k) = ix2 p k := funext fun ax => Fin.ext (by
    match ax with
    | ⟨0, _⟩ => exact dotAS2_lhs0 _ _
    | ⟨1, _⟩ => exact (dotAS2_lhs1 _ _).trans hk)
  have er : dot_S400x10000_S10000x64_S400x64_1_0_0_1_n_n.rhsIdx (ix2 p j) ((contrEquiv1 dot_S400x10000_S10000x64_S400x64_1_0_0_1_n_n 10000 rfl rfl).symm k) = ix2 k j := funext fun ax => Fin.ext (by
    match ax with
    | ⟨0, _⟩ => exact (dotAS2_rhs0 _ _).trans hk
    | ⟨1, _⟩ => exact dotAS2_rhs1 _ _)
  rw [el, er]

/-! ## The payloads -/

/-- The first payload: features times first weights. -/
theorem pay1_apply (x : Vec Ideal S10000x128 .f32) (w : Vec Ideal S128x128 .f32) (l : Fin 10000) (h : Fin 128) :
    k0_pay1 (F := Ideal) x w (ix2 l h) = ∑ f : Fin 128, x (ix2 l f) * w (ix2 f h) := by
  unfold k0_pay1
  rw [shapeCast_self]
  simp only [matmul]
  rw [Ideal.matmul_constant_zero_apply]
  exact dotXW_sum x w l h

/-! ### The second payload: one stripe of the hidden layer, times the second weights -/

/-- One stripe of the hidden layer: adjacency stripe times first support, plus the first bias, clamped below at zero. -/
def hiddenBlk (a : FVec Ideal S400x10000 .f32) (s1 : FVec Ideal S10000x128 .f32) (b : FVec Ideal S1x128 .f32) : FVec Ideal S400x128 .f32 :=
  maximumf (addf (matmul dot_S400x10000_S10000x128_S400x128_1_0_0_1_n_n none a s1 (constant S400x128 .f32 0x00000000#32))
      (broadcastTo S400x128 (shapeCast S1x128 b shapeCasts_S1x128_S1x128) broadcasts_S1x128_S400x128))
    (broadcast S400x128 (Scalar.ofBits .f32 0x00000000#32))

theorem hiddenBlk_apply (a : FVec Ideal S400x10000 .f32) (s1 : FVec Ideal S10000x128 .f32) (b : FVec Ideal S1x128 .f32) (p : Fin 400) (h : Fin 128) :
    hiddenBlk a s1 b (ix2 p h)
      = max (∑ l : Fin 10000, a (ix2 p l) * s1 (ix2 l h) + b (ix2 (0 : Fin 1) h)) (Ideal.ofBits .f32 0x00000000#32) := by
  unfold hiddenBlk
  show max (FloatOps.matmul dot_S400x10000_S10000x128_S400x128_1_0_0_1_n_n none a s1 (constant S400x128 .f32 0x00000000#32) (ix2 p h)
      + broadcastTo S400x128 (shapeCast S1x128 b shapeCasts_S1x128_S1x128) broadcasts_S1x128_S400x128 (ix2 p h)) (Ideal.ofBits .f32 0x00000000#32) = _
  rw [Ideal.matmul_constant_zero_apply, dotAS1_sum, shapeCast_self, broadcastTo_1b_ab_apply]

theorem pay2_apply (a : FVec Ideal S400x10000 .f32) (s1 : FVec Ideal S10000x128 .f32) (b : FVec Ideal S1x128 .f32) (w : FVec Ideal S128x64 .f32)
    (p : Fin 400) (j : Fin 64) :
    k0_pay2 (F := Ideal) a s1 b w (ix2 p j) = ∑ h : Fin 128, hiddenBlk a s1 b (ix2 p h) * w (ix2 h j) := by
  show shapeCast S400x64 (matmul dot_S400x128_S128x64_S400x64_1_0_0_1_n_n none (hiddenBlk a s1 b) w (constant S400x64 .f32 0x00000000#32)) shapeCasts_S400x64_S400x64 (ix2 p j) = _
  rw [shapeCast_self]
  simp only [matmul]
  rw [Ideal.matmul_constant_zero_apply]
  exact dotHW_sum _ w p j

/-! ### The third payload: logits, then a softmax along each row -/

/-- One stripe of the logits: adjacency stripe times second support, plus the second bias. -/
def logitBlk (a : FVec Ideal S400x10000 .f32) (s2 : FVec Ideal S10000x64 .f32) (b : FVec Ideal S1x64 .f32) : FVec Ideal S400x64 .f32 :=
  addf (matmul dot_S400x10000_S10000x64_S400x64_1_0_0_1_n_n none a s2 (constant S400x64 .f32 0x00000000#32))
    (broadcastTo S400x64 (shapeCast S1x64 b shapeCasts_S1x64_S1x64) broadcasts_S1x64_S400x64)

theorem logitBlk_apply (a : FVec Ideal S400x10000 .f32) (s2 : FVec Ideal S10000x64 .f32) (b : FVec Ideal S1x64 .f32) (p : Fin 400) (j : Fin 64) :
    logitBlk a s2 b (ix2 p j) = ∑ k : Fin 10000, a (ix2 p k) * s2 (ix2 k j) + b (ix2 (0 : Fin 1) j) := by
  unfold logitBlk
  show FloatOps.matmul dot_S400x10000_S10000x64_S400x64_1_0_0_1_n_n none a s2 (constant S400x64 .f32 0x00000000#32) (ix2 p j)
      + broadcastTo S400x64 (shapeCast S1x64 b shapeCasts_S1x64_S1x64) broadcasts_S1x64_S400x64 (ix2 p j) = _
  rw [Ideal.matmul_constant_zero_apply, dotAS2_sum, shapeCast_self, broadcastTo_1b_ab_apply]

/-- Each row's maximum, folded from minus infinity. -/
def rowMaxBlk (o : FVec Ideal S400x64 .f32) : FVec Ideal S400 .f32 :=
  multiReduction .maximumf [1] S400 o 0xFF800000#32 reduces_S400x64_S400 (.inl rfl) rfl
/-- The exponentials of the logits less their row's maximum. -/
def expBlk (o : FVec Ideal S400x64 .f32) : FVec Ideal S400x64 .f32 :=
  exp (subf o (broadcastTo S400x64 (shapeCast S400x1 (rowMaxBlk o) shapeCasts_S400_S400x1) broadcasts_S400x1_S400x64))
/-- Those over their row's sum. -/
def softmaxBlk (o : FVec Ideal S400x64 .f32) : FVec Ideal S400x64 .f32 :=
  divf (expBlk o) (broadcastTo S400x64 (shapeCast S400x1
    (multiReduction .add [1] S400 (expBlk o) 0x00000000#32 reduces_S400x64_S400 (.inl rfl) rfl) shapeCasts_S400_S400x1) broadcasts_S400x1_S400x64)

theorem pay3_eq (a : FVec Ideal S400x10000 .f32) (s2 : FVec Ideal S10000x64 .f32) (b : FVec Ideal S1x64 .f32) :
    k0_pay3 (F := Ideal) a s2 b = softmaxBlk (logitBlk a s2 b) := rfl

/-- The index a row reduction reads: column k of row p. -/
theorem lift_row (p : Fin 400) (k : Fin 64) : reduces_S400x64_S400.lift (ix1 p) k = ix2 p k :=
  funext fun a => Fin.ext (match a with | ⟨0, _⟩ => rfl | ⟨1, _⟩ => rfl)

theorem rowMaxBlk_apply (o : FVec Ideal S400x64 .f32) (p : Fin 400) :
    rowMaxBlk o (ix1 p) = (Finset.univ : Finset (Fin 64)).fold max (Ideal.ofBits .f32 0xFF800000#32) (fun j => o (ix2 p j)) := by
  unfold rowMaxBlk
  refine (Ideal.multiReduction_maximumf_single o 0xFF800000#32 reduces_S400x64_S400 (.inl rfl) rfl (ix1 p)).trans ?_
  exact congrArg (fun g : Fin 64 → Ideal .f32 => (Finset.univ : Finset (Fin 64)).fold max (Ideal.ofBits .f32 0xFF800000#32) g)
    (funext fun k => congrArg o (lift_row p k))

theorem expBlk_apply (o : FVec Ideal S400x64 .f32) (p : Fin 400) (j : Fin 64) :
    expBlk o (ix2 p j) = Ideal.exp (o (ix2 p j) - rowMaxBlk o (ix1 p)) := by
  unfold expBlk
  show Ideal.exp (o (ix2 p j) - broadcastTo S400x64 (shapeCast S400x1 (rowMaxBlk o) shapeCasts_S400_S400x1) broadcasts_S400x1_S400x64 (ix2 p j)) = _
  rw [broadcastTo_a1_ab_apply, shapeCast_a_a1_apply]

theorem softmaxBlk_apply (o : FVec Ideal S400x64 .f32) (p : Fin 400) (j : Fin 64) :
    softmaxBlk o (ix2 p j) = Ideal.div (expBlk o (ix2 p j)) (∑ j' : Fin 64, expBlk o (ix2 p j')) := by
  unfold softmaxBlk
  show Ideal.div (expBlk o (ix2 p j)) (broadcastTo S400x64 (shapeCast S400x1
    (multiReduction .add [1] S400 (expBlk o) 0x00000000#32 reduces_S400x64_S400 (.inl rfl) rfl) shapeCasts_S400_S400x1) broadcasts_S400x1_S400x64 (ix2 p j)) = _
  rw [broadcastTo_a1_ab_apply, shapeCast_a_a1_apply]
  refine congrArg (Ideal.div _) ((Ideal.multiReduction_add_single (expBlk o) 0x00000000#32 reduces_S400x64_S400 (.inl rfl) rfl (ix1 p)).trans ?_)
  show (∑ k : Fin 64, expBlk o (reduces_S400x64_S400.lift (ix1 p) k)) = _
  simp only [lift_row]

/-- The third payload at (p, j): the softmax of row p of the logits. -/
theorem pay3_apply (a : FVec Ideal S400x10000 .f32) (s2 : FVec Ideal S10000x64 .f32) (b : FVec Ideal S1x64 .f32) (p : Fin 400) (j : Fin 64) :
    k0_pay3 (F := Ideal) a s2 b (ix2 p j)
      = Ideal.div (Ideal.exp (logitBlk a s2 b (ix2 p j)
            - (Finset.univ : Finset (Fin 64)).fold max (Ideal.ofBits .f32 0xFF800000#32) (fun j' => logitBlk a s2 b (ix2 p j'))))
          (∑ j' : Fin 64, Ideal.exp (logitBlk a s2 b (ix2 p j')
            - (Finset.univ : Finset (Fin 64)).fold max (Ideal.ofBits .f32 0xFF800000#32) (fun j'' => logitBlk a s2 b (ix2 p j'')))) := by
  rw [pay3_eq, softmaxBlk_apply]
  simp only [expBlk_apply, rowMaxBlk_apply]

end Cert.KernelIdeal.Payloads

end
-- ==== Proof.GcnSpec.lean ====
/-
  The two-layer graph convolution as one function of its six arguments, entry by entry, on the extended reals:
  features X [10000, 128], adjacency A [10000, 10000], weights W1 [128, 128] and W2 [128, 64], biases b1 [128] and b2 [64].

    support1 = X W1,  hidden = max(A support1 + b1, 0),  support2 = hidden W2,  logit = A support2 + b2,
    result(r, j) = exp(logit(r, j) - M(r)) / Σ_j' exp(logit(r, j') - M(r)),  M(r) = max_j logit(r, j) (folded from -∞).

  The two literal words (zero, minus infinity) are kept as words: both programs spell them the same.
-/
import Idealize.ShloMosaic.PureOps.Ideal
import Idealize.ShloMosaic.Lib.ValueIdx

noncomputable section

namespace Cert.Spec

open Idealize.ShloMosaic Idealize.ShloMosaic.ValueIdx

abbrev Mat (a b : ℕ) : Type := (⟨2, ![a, b]⟩ : Shape).Idx → EReal
abbrev Row (a : ℕ) : Type := (⟨1, ![a]⟩ : Shape).Idx → EReal

variable (X : Mat 10000 128) (A : Mat 10000 10000) (W1 : Mat 128 128) (b1 : Row 128) (W2 : Mat 128 64) (b2 : Row 64)

/-- Features times first weights. -/
def support1 (l : Fin 10000) (h : Fin 128) : EReal := ∑ f : Fin 128, X (ix2 l f) * W1 (ix2 f h)

/-- The hidden layer: adjacency times first support, plus bias, clamped below at zero. -/
def hidden (k : Fin 10000) (h : Fin 128) : EReal :=
  max (∑ l : Fin 10000, A (ix2 k l) * support1 X W1 l h + b1 (ix1 h)) (Ideal.ofBits .f32 0x00000000#32)

/-- Hidden layer times second weights. -/
def support2 (k : Fin 10000) (j : Fin 64) : EReal := ∑ h : Fin 128, hidden X A W1 b1 k h * W2 (ix2 h j)

/-- Adjacency times second support, plus bias. -/
def logit (r : Fin 10000) (j : Fin 64) : EReal := ∑ k : Fin 10000, A (ix2 r k) * support2 X A W1 b1 W2 k j + b2 (ix1 j)

/-- A row's largest logit, folded from minus infinity. -/
def rowMax (r : Fin 10000) : EReal :=
  (Finset.univ : Finset (Fin 64)).fold max (Ideal.ofBits .f32 0xFF800000#32) (fun j => logit X A W1 b1 W2 b2 r j)

/-- The softmax along a row. -/
def softmax (r : Fin 10000) (j : Fin 64) : EReal :=
  Ideal.div (Ideal.exp (logit X A W1 b1 W2 b2 r j - rowMax X A W1 b1 W2 b2 r))
    (∑ j' : Fin 64, Ideal.exp (logit X A W1 b1 W2 b2 r j' - rowMax X A W1 b1 W2 b2 r))

/-- The result array. -/
def result : Mat 10000 64 := fun y => softmax X A W1 b1 W2 b2 ⟨(y 0).val, idx2_lt0 y⟩ ⟨(y 1).val, idx2_lt1 y⟩

theorem result_ix2 (r : Fin 10000) (j : Fin 64) : result X A W1 b1 W2 b2 (ix2 r j) = softmax X A W1 b1 W2 b2 r j := rfl

end Cert.Spec

end
-- ==== Proof.IdealValue.lean ====
/-
  The kernel's output array is the two-layer graph convolution of the argument arrays, entry by entry.

  The first scratch holds X W1 (first payload over the whole feature and weight arrays).  Stripe n of the second
  scratch holds rows [400 n, 400 n + 400) of max(A (X W1) + b1, 0) W2, because at point n of the first sweep the
  adjacency window holds rows [400 n, 400 n + 400) of A.  In the second sweep point t holds stripe 49 - t of A and
  writes back block 49 - t of the output, so row r of the output is the softmax of row r of A support2 + b2.
-/
import proofs.«143505_g55216099557796_cont_9to1c4b_742_7_alg».proof.Proof.IdealOutput
import proofs.«143505_g55216099557796_cont_9to1c4b_742_7_alg».proof.Proof.IdealRead
import proofs.«143505_g55216099557796_cont_9to1c4b_742_7_alg».proof.Proof.IdealPayloads
import proofs.«143505_g55216099557796_cont_9to1c4b_742_7_alg».proof.Proof.GcnSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Payloads
open Idealize.ShloMosaic.ValueIdx

variable (m : (ℓ : Loc nD τ sig) → Buf (Elt Ideal) ℓ)

/-- The adjacency window's block at a point holding stripe s: row p of the block is row r = 400 s + p of the array. -/
theorem blkA_row (c : Dev nD) (t : Fin cfg0.N) (s : ℕ) (hs : win0_1.index t = ![s, 0]) (p : Fin 400) (r : Fin 10000)
    (hr : r.val = 400 * s + p.val) (l : Fin 10000) : iblk m c 1 t (ix2 p l) = argA m c (ix2 r l) :=
  (blkA_apply m c t s hs p l (by rw [← hr]; exact r.isLt)).trans (congrArg (fun q => argA m c (ix2 q l)) (Fin.ext hr.symm))

/-- The first scratch's contents: features times first weights. -/
theorem support1_at (c : Dev nD) (l : Fin 10000) (h : Fin 128) :
    support1 m c (ix2 l h) = Cert.Spec.support1 (argX m c) (argW1 m c) l h := by
  unfold support1
  refine (pay1_apply (iblk m c 0 pt0) (iblk m c 2 pt0) l h).trans ?_
  unfold Cert.Spec.support1
  exact Finset.sum_congr rfl fun f _ => by rw [blkX_apply, blkW1_apply]

/-- Stripe n of the second scratch: rows [400 n, 400 n + 400) of the second support. -/
theorem stripe2_at (c : Dev nD) (n : ℕ) (hn : n < cfg0.N) (h25 : n < 25) (p : Fin 400) (j : Fin 64) (k : Fin 10000)
    (hk : k.val = 400 * n + p.val) :
    stripe2 m c n hn (ix2 p j) = Cert.Spec.support2 (argX m c) (argA m c) (argW1 m c) (argB1 m c) (argW2 m c) k j := by
  unfold stripe2
  refine (pay2_apply (iblk m c 1 ⟨n, hn⟩) (support1 m c) (iblk m c 3 ⟨n, hn⟩) (iblk m c 4 ⟨n, hn⟩) p j).trans ?_
  unfold Cert.Spec.support2
  refine Finset.sum_congr rfl fun h _ => ?_
  rw [hiddenBlk_apply, blkW2_apply, blkB1_apply]
  unfold Cert.Spec.hidden
  refine congrArg (fun z => max (z + argB1 m c (ix1 h)) (Ideal.ofBits .f32 0x00000000#32) * argW2 m c (ix2 h j)) ?_
  exact Finset.sum_congr rfl fun l _ => by
    rw [blkA_row m c ⟨n, hn⟩ n (adjIndex_first ⟨n, hn⟩ h25) p k hk l, support1_at]

/-- The second scratch's contents once all stripes are done: the second support. -/
theorem support2_at (c : Dev nD) (k : Fin 10000) (j : Fin 64) :
    support2 m c (ix2 k j) = Cert.Spec.support2 (argX m c) (argA m c) (argW1 m c) (argB1 m c) (argW2 m c) k j := by
  have hk := k.isLt
  exact stripe2_at m c (k.val / 400) (by rw [gridN]; omega) (by omega) ⟨k.val % 400, Nat.mod_lt _ (by omega)⟩ ⟨j.val, j.isLt⟩ k
    (by show k.val = 400 * (k.val / 400) + k.val % 400; omega)

/-- The output array, entry by entry. -/
theorem outArr_at (c : Dev nD) (r : Fin 10000) (j : Fin 64) :
    outArr m c (ix2 r j)
      = Cert.Spec.softmax (argX m c) (argA m c) (argW1 m c) (argB1 m c) (argW2 m c) (argB2 m c) r j := by
  have hr := r.isLt
  have hN : 49 - r.val / 400 < cfg0.N := by rw [gridN]; omega
  have ht : 25 ≤ (⟨49 - r.val / 400, hN⟩ : Fin cfg0.N).val := by show 25 ≤ 49 - r.val / 400; omega
  have hrow : r.val = 400 * (49 - (⟨49 - r.val / 400, hN⟩ : Fin cfg0.N).val) + (⟨r.val % 400, Nat.mod_lt _ (by omega)⟩ : Fin 400).val := by
    show r.val = 400 * (49 - (49 - r.val / 400)) + r.val % 400; omega
  have hl : ∀ j' : Fin 64,
      logitBlk (iblk m c 1 ⟨49 - r.val / 400, hN⟩) (support2 m c) (iblk m c 5 ⟨49 - r.val / 400, hN⟩) (ix2 ⟨r.val % 400, Nat.mod_lt _ (by omega)⟩ j')
        = Cert.Spec.logit (argX m c) (argA m c) (argW1 m c) (argB1 m c) (argW2 m c) (argB2 m c) r j' := fun j' => by
    rw [logitBlk_apply, blkB2_apply]
    unfold Cert.Spec.logit
    refine congrArg (· + argB2 m c (ix1 j')) (Finset.sum_congr rfl fun k _ => ?_)
    rw [blkA_row m c ⟨49 - r.val / 400, hN⟩ _ (adjIndex_second _ ht) _ r hrow k, support2_at]
  show outStripe m c (49 - r.val / 400) hN (ix2 ⟨r.val % 400, Nat.mod_lt _ (by omega)⟩ ⟨j.val, j.isLt⟩) = _
  unfold outStripe
  refine (pay3_apply (iblk m c 1 ⟨49 - r.val / 400, hN⟩) (support2 m c) (iblk m c 5 ⟨49 - r.val / 400, hN⟩) _ _).trans ?_
  simp only [hl]
  rfl

/-- The output array is the specification's result of the argument arrays. -/
theorem outArr_eq (c : Dev nD) :
    outArr m c = Cert.Spec.result (argX m c) (argA m c) (argW1 m c) (argB1 m c) (argW2 m c) (argB2 m c) := by
  funext y
  obtain ⟨r, j, rfl⟩ : ∃ (r : Fin 10000) (j : Fin 64), y = ix2 r j := ⟨y 0, y 1, eq_ix2 y⟩
  rw [outArr_at, Cert.Spec.result_ix2]

end Cert.KernelIdeal.Hand

end
-- ==== Proof.RefValue.lean ====
/-
  The reference program's result is the two-layer graph convolution of its arguments, entry by entry: each of its
  operations read at an index, stage by stage — first support, hidden layer, second support, logits, the row's maximum
  (a fold from minus infinity, taken once more against minus infinity, which changes nothing), the exponentials, the
  row's sum (started from the zero word), the quotient.
-/
import proofs.«143505_g55216099557796_cont_9to1c4b_742_7_alg».proof.Proof.Gen.ReferenceIdeal.Read
import proofs.«143505_g55216099557796_cont_9to1c4b_742_7_alg».proof.Proof.GcnSpec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-! ## The composed index maps, at coordinates -/

theorem l0 (l : Fin 10000) (h : Fin 128) (k : Fin 128) : lidx_main_v0 (ix2 l h) k = ix2 l k :=
  funext fun a => Fin.ext (by match a with | ⟨0, _⟩ => rfl | ⟨1, _⟩ => rfl)
theorem r0 (l : Fin 10000) (h : Fin 128) (k : Fin 128) : ridx_main_v0 (ix2 l h) k = ix2 k h :=
  funext fun a => Fin.ext (by match a with | ⟨0, _⟩ => rfl | ⟨1, _⟩ => rfl)
theorem l1 (k : Fin 10000) (h : Fin 128) (l : Fin 10000) : lidx_main_v1 (ix2 k h) l = ix2 k l :=
  funext fun a => Fin.ext (by match a with | ⟨0, _⟩ => rfl | ⟨1, _⟩ => rfl)
theorem r1 (k : Fin 10000) (h : Fin 128) (l : Fin 10000) : ridx_main_v1 (ix2 k h) l = ix2 l h :=
  funext fun a => Fin.ext (by match a with | ⟨0, _⟩ => rfl | ⟨1, _⟩ => rfl)
theorem i3 (k : Fin 10000) (h : Fin 128) : idx_main_v3 (ix2 k h) = ix2 (0 : Fin 1) h :=
  funext fun a => Fin.ext (by match a with | ⟨0, _⟩ => rfl | ⟨1, _⟩ => rfl)
theorem i2 (u : Fin 1) (h : Fin 128) : idx_main_v2 (ix2 u h) = ix1 h :=
  funext fun a => Fin.ext (by match a with | ⟨0, _⟩ => rfl)
theorem l6 (k : Fin 10000) (j : Fin 64) (h : Fin 128) : lidx_main_v6 (ix2 k j) h = ix2 k h :=
  funext fun a => Fin.ext (by match a with | ⟨0, _⟩ => rfl | ⟨1, _⟩ => rfl)
theorem r6 (k : Fin 10000) (j : Fin 64) (h : Fin 128) : ridx_main_v6 (ix2 k j) h = ix2 h j :=
  funext fun a => Fin.ext (by match a with | ⟨0, _⟩ => rfl | ⟨1, _⟩ => rfl)
theorem l7 (r : Fin 10000) (j : Fin 64) (k : Fin 10000) : lidx_main_v7 (ix2 r j) k = ix2 r k :=
  funext fun a => Fin.ext (by match a with | ⟨0, _⟩ => rfl | ⟨1, _⟩ => rfl)
theorem r7 (r : Fin 10000) (j : Fin 64) (k : Fin 10000) : ridx_main_v7 (ix2 r j) k = ix2 k j :=
  funext fun a => Fin.ext (by match a with | ⟨0, _⟩ => rfl | ⟨1, _⟩ => rfl)
theorem i9 (r : Fin 10000) (j : Fin 64) : idx_main_v9 (ix2 r j) = ix2 (0 : Fin 1) j :=
  funext fun a => Fin.ext (by match a with | ⟨0, _⟩ => rfl | ⟨1, _⟩ => rfl)
theorem i8 (u : Fin 1) (j : Fin 64) : idx_main_v8 (ix2 u j) = ix1 j :=
  funext fun a => Fin.ext (by match a with | ⟨0, _⟩ => rfl)
theorem i15 (r : Fin 10000) (j : Fin 64) : idx_main_v15 (ix2 r j) = ix2 r (0 : Fin 1) :=
  funext fun a => Fin.ext (by match a with | ⟨0, _⟩ => rfl | ⟨1, _⟩ => rfl)
theorem i14 (r : Fin 10000) (u : Fin 1) : idx_main_v14 (ix2 r u) = ix1 r :=
  funext fun a => Fin.ext (by match a with | ⟨0, _⟩ => rfl)
theorem i20 (r : Fin 10000) (j : Fin 64) : idx_main_v20 (ix2 r j) = ix2 r (0 : Fin 1) :=
  funext fun a => Fin.ext (by match a with | ⟨0, _⟩ => rfl | ⟨1, _⟩ => rfl)
theorem i19 (r : Fin 10000) (u : Fin 1) : idx_main_v19 (ix2 r u) = ix1 r :=
  funext fun a => Fin.ext (by match a with | ⟨0, _⟩ => rfl)
theorem i18 (r : Fin 10000) (k : Fin 64) : idx_main_v18 (ix1 r) k = ix2 r k :=
  funext fun a => Fin.ext (by match a with | ⟨0, _⟩ => rfl | ⟨1, _⟩ => rfl)

/-! ## Stage by stage -/

theorem support1_at (l : Fin 10000) (h : Fin 128) :
    val_main_v0 (F := Ideal) x0 x2 (ix2 l h) = Cert.Spec.support1 x0 x2 l h := by
  rw [val_main_v0_apply]
  simp only [l0, r0]
  rfl

theorem hidden_at (k : Fin 10000) (h : Fin 128) :
    val_main_v5 (F := Ideal) x0 x1 x2 x3 (ix2 k h) = Cert.Spec.hidden x0 x1 x2 x3 k h := by
  rw [val_main_v5_apply, val_main_v4_apply, val_main_v1_apply, val_main_v3_apply, val_main_call0_v0_apply, val_main_call0_cst_apply]
  simp only [l1, r1, i3, i2, val_main_v2_apply, support1_at]
  rfl

theorem support2_at (k : Fin 10000) (j : Fin 64) :
    val_main_v6 (F := Ideal) x0 x1 x2 x3 x4 (ix2 k j) = Cert.Spec.support2 x0 x1 x2 x3 x4 k j := by
  rw [val_main_v6_apply]
  simp only [l6, r6, hidden_at]
  rfl

theorem logit_at (r : Fin 10000) (j : Fin 64) :
    val_main_v10 (F := Ideal) x0 x1 x2 x3 x4 x5 (ix2 r j) = Cert.Spec.logit x0 x1 x2 x3 x4 x5 r j := by
  rw [val_main_v10_apply, val_main_v7_apply, val_main_v9_apply]
  simp only [l7, r7, i9, i8, val_main_v8_apply, support2_at]
  rfl

/-- The index a row reduction reads: column k of row r. -/
theorem lift_row (hR : S10000x64.Reduces [1] S10000) (r : Fin 10000) (k : Fin 64) : hR.lift (ix1 r) k = ix2 r k :=
  funext fun a => Fin.ext (match a with | ⟨0, _⟩ => rfl | ⟨1, _⟩ => rfl)

/-- The reference's row maximum: the fold from minus infinity, and once more against minus infinity. -/
theorem rowMax_at (r : Fin 10000) :
    val_main_v13 (F := Ideal) x0 x1 x2 x3 x4 x5 (ix1 r) = Cert.Spec.rowMax x0 x1 x2 x3 x4 x5 r := by
  have hR : S10000x64.Reduces [1] S10000 := by decide
  have hfold : val_main_v11 (F := Ideal) x0 x1 x2 x3 x4 x5 (ix1 r) = Cert.Spec.rowMax x0 x1 x2 x3 x4 x5 r := by
    unfold val_main_v11
    rw [Host.reduce_eq_fold_single FloatOps.maximumf _ _ reducesTo_S10000x64_S10000_d1 hR h_S_]
    exact congrArg (fun g : Fin 64 → Ideal .f32 => (Finset.univ : Finset (Fin 64)).fold max (Ideal.ofBits .f32 0xFF800000#32) g)
      (funext fun k => (congrArg (val_main_v10 (F := Ideal) x0 x1 x2 x3 x4 x5) (lift_row hR r k)).trans (logit_at x0 x1 x2 x3 x4 x5 r k))
  rw [val_main_v13_apply, val_main_v12_apply, val_main_cst_0_apply, hfold]
  show max (Ideal.ofBits .f32 0xFF800000#32) (Cert.Spec.rowMax x0 x1 x2 x3 x4 x5 r) = _
  unfold Cert.Spec.rowMax
  exact max_eq_right ((Finset.le_fold_max (Ideal.ofBits .f32 0xFF800000#32)).mpr (Or.inl le_rfl))

theorem exp_at (r : Fin 10000) (j : Fin 64) :
    val_main_v17 (F := Ideal) x0 x1 x2 x3 x4 x5 (ix2 r j)
      = Ideal.exp (Cert.Spec.logit x0 x1 x2 x3 x4 x5 r j - Cert.Spec.rowMax x0 x1 x2 x3 x4 x5 r) := by
  rw [val_main_v17_apply, val_main_v16_apply, val_main_v15_apply, i15, val_main_v14_apply, i14, rowMax_at, logit_at]
  rfl

/-- The reference's result, entry by entry. -/
theorem result_at (r : Fin 10000) (j : Fin 64) :
    val_main_v21 (F := Ideal) x0 x1 x2 x3 x4 x5 (ix2 r j) = Cert.Spec.softmax x0 x1 x2 x3 x4 x5 r j := by
  rw [val_main_v21_apply, val_main_v20_apply, i20, val_main_v19_apply, i19, val_main_v18_apply, val_main_cst_1_apply]
  simp only [i18, exp_at]
  show Ideal.div _ (Ideal.ofBits .f32 0x00000000#32 + _) = _
  rw [Ideal.ofBits_zero_f32, zero_add]
  rfl

theorem result_eq : val_main_v21 (F := Ideal) x0 x1 x2 x3 x4 x5 = Cert.Spec.result x0 x1 x2 x3 x4 x5 := by
  funext y
  obtain ⟨r, j, rfl⟩ : ∃ (r : Fin 10000) (j : Fin 64), y = ix2 r j := ⟨y 0, y 1, eq_ix2 y⟩
  rw [result_at, Cert.Spec.result_ix2]

end Cert.ReferenceIdeal.RefValue

end
-- ==== Proof.lean ====
/-
  A fused two-layer dense graph convolution against its plain reference:
  softmax(A · (relu(A · (X W1) + b1) · W2) + b2) over f32[10000, 128] features, a [10000, 10000] adjacency, along each row.

  The kernel sweeps the 25 row stripes of A twice on a 2 × 25 grid.  The first sweep keeps X W1 in one scratch buffer and
  fills a second, one stripe per point, with relu(A (X W1) + b1) W2; the second sweep reads that buffer whole and writes
  the softmax of A · (it) + b2, one block of 400 rows per point.  Read on the extended reals both programs compute the
  same sums of the same products in the same grouping (each contraction is taken whole, over the same index), the same
  clamp at zero, the same row maximum folded from minus infinity and the same quotient of exponentials; so the two results
  are equal entry by entry with no appeal to finiteness.  The reference takes the row maximum once more against minus
  infinity, which leaves it unchanged, and starts its row sum from the zero word.

  The frames: the program at the word-level instance and at the ideal one is run point by point against an invariant
  naming what the two scratch buffers hold; the reference has no kernel, and its frame is its run with the result dropped.
  No operation was rewritten by the idealization, so there is nothing to preserve.
-/
import proofs.«143505_g55216099557796_cont_9to1c4b_742_7_alg».proof.Defs
import proofs.«143505_g55216099557796_cont_9to1c4b_742_7_alg».proof.Proof.Gen.Kernel
import proofs.«143505_g55216099557796_cont_9to1c4b_742_7_alg».proof.Proof.Gen.KernelIdeal
import proofs.«143505_g55216099557796_cont_9to1c4b_742_7_alg».proof.Proof.Gen.ReferenceIdeal
import proofs.«143505_g55216099557796_cont_9to1c4b_742_7_alg».proof.Proof.Gen.Pre_finite_inputs
import proofs.«143505_g55216099557796_cont_9to1c4b_742_7_alg».proof.Proof.BitsTrack
import proofs.«143505_g55216099557796_cont_9to1c4b_742_7_alg».proof.Proof.IdealValue
import proofs.«143505_g55216099557796_cont_9to1c4b_742_7_alg».proof.Proof.RefValue

noncomputable section

namespace Cert.Proof

open Idealize.ShloMosaic Idealize.SL.Sem

theorem frame_bits : Cert.frame_Kernel := fun m ρ _ => Cert.Kernel.Hand.frame m ρ

theorem frame_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's result of the (agreeing) arguments. -/
theorem algebraic : Cert.algebraic_KernelIdeal_ReferenceIdeal := by
  intro m ρ m' ρ' _ hagree
  refine ⟨fun c => Cert.KernelIdeal.Hand.outArr m c, Cert.KernelIdeal.Hand.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2.1, (hagree c).2.2.2.2.1, (hagree c).2.2.2.2.2]
  exact (Cert.KernelIdeal.Hand.outArr_eq m c).symm

theorem claim : Cert.Claim :=
  ⟨Cert.Kernel.Gen.facts, Cert.KernelIdeal.Gen.facts, Cert.ReferenceIdeal.Gen.facts, Cert.Pre_finite_inputs.Gen.facts,
    frame_bits, frame_ideal, frame_reference, preserves, algebraic⟩

end Cert.Proof

end
